-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1 : Shape := ⟨2, ![8192, 1]⟩
abbrev S11008x4096 : Shape := ⟨2, ![11008, 4096]⟩
abbrev S11008x32 : Shape := ⟨2, ![11008, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S11008x4096 : S_.BroadcastsInDim S11008x4096 (![] : Fin 0 → Fin S11008x4096.rank)
  reducesTo_S11008x4096_S_d0_1 : S11008x4096.ReducesTo [0, 1] S_
  bcast_S_S11008x32 : S_.BroadcastsInDim S11008x32 (![] : Fin 0 → Fin S11008x32.rank)
  reducesTo_S11008x32_S_d0_1 : S11008x32.ReducesTo [0, 1] S_

variable [Facts]

def fn_part1 {F : FTy → Type} [FloatOps F] (main_arg4 : FVec F S11008x32 .f32) (main_v13 : IVec S_ 1) (main_v16 : IVec S11008x32 1) : IVec S_ 1 :=
  let main_c_5 : IVec S_ 1 := constantI S_ 1 1#1
  let main_v17 : IVec S_ 1 := (fun x v => Host.reduce IntOp.andi x v reducesTo_S11008x32_S_d0_1 h_S_) main_v16 main_c_5
  let main_v18 : IVec S_ 1 := andi main_v13 main_v17
  let main_v19 : FVec F S11008x32 .f32 := Host.absf main_arg4
  let main_cst_6 : FVec F S_ .f32 := constant S_ .f32 0x7F800000#32
  let main_v20 : FVec F S11008x32 .f32 := broadcastInDim S11008x32 ![] bcast_S_S11008x32 main_cst_6
  let main_v21 : IVec S11008x32 1 := cmpf .olt main_v19 main_v20
  let main_c_7 : IVec S_ 1 := constantI S_ 1 1#1
  let main_v22 : IVec S_ 1 := (fun x v => Host.reduce IntOp.andi x v reducesTo_S11008x32_S_d0_1 h_S_) main_v21 main_c_7
  let main_v23 : IVec S_ 1 := andi main_v18 main_v22
  main_v23

def fn {F : FTy → Type} [FloatOps F] (main_arg0 : FVec F S8192x4096 .f32) (main_arg1 : FVec F S8192x1 .f32) (main_arg2 : FVec F S11008x4096 .f32) (main_arg3 : FVec F S11008x32 .f32) (main_arg4 : FVec F S11008x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S11008x32 .f32 := Host.absf main_arg3
  let main_cst_4 : FVec F S_ .f32 := constant S_ .f32 0x7F800000#32
  let main_v15 : FVec F S11008x32 .f32 := broadcastInDim S11008x32 ![] bcast_S_S11008x32 main_cst_4
  let main_v16 : IVec S11008x32 1 := cmpf .olt main_v14 main_v15
  fn_part1 (F := F) main_arg4 main_v13 main_v16
-- ==== Kernel.lean ====
abbrev S8192x4096 : Shape := ⟨2, ![8192, 4096]⟩
abbrev S8192x1 : Shape := ⟨2, ![8192, 1]⟩
abbrev S11008x4096 : Shape := ⟨2, ![11008, 4096]⟩
abbrev S11008x32 : Shape := ⟨2, ![11008, 32]⟩
abbrev S8192x11008 : Shape := ⟨2, ![8192, 11008]⟩
abbrev S512x4096 : Shape := ⟨2, ![512, 4096]⟩
abbrev S512x1 : Shape := ⟨2, ![512, 1]⟩
abbrev S512x32 : Shape := ⟨2, ![512, 32]⟩
abbrev S512x512 : Shape := ⟨2, ![512, 512]⟩
abbrev S512x4 : Shape := ⟨2, ![512, 4]⟩
abbrev S512x4x1 : Shape := ⟨3, ![512, 4, 1]⟩
abbrev S512x4x128 : Shape := ⟨3, ![512, 4, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S11008x4096, .f32⟩
  | .hbm, ⟨3, _⟩ => ⟨S11008x32, .f32⟩
  | .hbm, ⟨4, _⟩ => ⟨S11008x32, .f32⟩
  | .hbm, ⟨5, _⟩ => ⟨S8192x11008, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x4096, .f32⟩
  | .local _ .vmem, ⟨5, _⟩ => ⟨S512x4096, .f32⟩
  | .local _ .vmem, ⟨6, _⟩ => ⟨S512x32, .f32⟩
  | .local _ .vmem, ⟨7, _⟩ => ⟨S512x32, .f32⟩
  | .local _ .vmem, ⟨8, _⟩ => ⟨S512x32, .f32⟩
  | .local _ .vmem, ⟨9, _⟩ => ⟨S512x32, .f32⟩
  | .local _ .vmem, ⟨10, _⟩ => ⟨S512x512, .f32⟩
  | .local _ .vmem, ⟨11, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  iota_S512x512_d0_w32 : S512x512.Iotas .tc 32 [0]
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  broadcasts_S512x1_S512x4096 : S512x1.Broadcasts S512x4096
  inb_S512x32_S512x4_0_0 : ∀ a, (![0, 0] : Fin 2 → Nat) a + S512x4.size a ≤ S512x32.size a
  h_S512x4 : 0 < S512x4.numel
  shapeCasts_S512x4_S512x4x1 : S512x4.ShapeCasts S512x4x1
  shapeCasts_S512x4x1_S512x4x1 : S512x4x1.ShapeCasts S512x4x1
  broadcasts_S512x4x1_S512x4x128 : S512x4x1.Broadcasts S512x4x128
  shapeCasts_S512x4x128_S512x512 : S512x4x128.ShapeCasts S512x512
  inb_S512x4096_S512x512_0_0 : ∀ a, (![0, 0] : Fin 2 → Nat) a + S512x512.size a ≤ S512x4096.size a
  h_S512x512 : 0 < S512x512.numel
  slices_S512x4096_o0_0_S512x512 : S512x4096.Slices ![0, 0] S512x512
  bitsLt_bf16_f32 : FTy.bits .bf16 < FTy.bits .f32
  inb_S512x32_S512x4_0_4 : ∀ a, (![0, 4] : Fin 2 → Nat) a + S512x4.size a ≤ S512x32.size a
  inb_S512x4096_S512x512_0_512 : ∀ a, (![0, 512] : Fin 2 → Nat) a + S512x512.size a ≤ S512x4096.size a
  slices_S512x4096_o0_512_S512x512 : S512x4096.Slices ![0, 512] S512x512
  inb_S512x32_S512x4_0_8 : ∀ a, (![0, 8] : Fin 2 → Nat) a + S512x4.size a ≤ S512x32.size a
  inb_S512x4096_S512x512_0_1024 : ∀ a, (![0, 1024] : Fin 2 → Nat) a + S512x512.size a ≤ S512x4096.size a
  slices_S512x4096_o0_1024_S512x512 : S512x4096.Slices ![0, 1024] S512x512
  inb_S512x32_S512x4_0_12 : ∀ a, (![0, 12] : Fin 2 → Nat) a + S512x4.size a ≤ S512x32.size a
  inb_S512x4096_S512x512_0_1536 : ∀ a, (![0, 1536] : Fin 2 → Nat) a + S512x512.size a ≤ S512x4096.size a
  slices_S512x4096_o0_1536_S512x512 : S512x4096.Slices ![0, 1536] S512x512
  inb_S512x32_S512x4_0_16 : ∀ a, (![0, 16] : Fin 2 → Nat) a + S512x4.size a ≤ S512x32.size a
  inb_S512x4096_S512x512_0_2048 : ∀ a, (![0, 2048] : Fin 2 → Nat) a + S512x512.size a ≤ S512x4096.size a
  slices_S512x4096_o0_2048_S512x512 : S512x4096.Slices ![0, 2048] S512x512
  inb_S512x32_S512x4_0_20 : ∀ a, (![0, 20] : Fin 2 → Nat) a + S512x4.size a ≤ S512x32.size a
  inb_S512x4096_S512x512_0_2560 : ∀ a, (![0, 2560] : Fin 2 → Nat) a + S512x512.size a ≤ S512x4096.size a
  slices_S512x4096_o0_2560_S512x512 : S512x4096.Slices ![0, 2560] S512x512
  inb_S512x32_S512x4_0_24 : ∀ a, (![0, 24] : Fin 2 → Nat) a + S512x4.size a ≤ S512x32.size a
  inb_S512x4096_S512x512_0_3072 : ∀ a, (![0, 3072] : Fin 2 → Nat) a + S512x512.size a ≤ S512x4096.size a
  slices_S512x4096_o0_3072_S512x512 : S512x4096.Slices ![0, 3072] S512x512
  inb_S512x32_S512x4_0_28 : ∀ a, (![0, 28] : Fin 2 → Nat) a + S512x4.size a ≤ S512x32.size a
  inb_S512x4096_S512x512_0_3584 : ∀ a, (![0, 3584] : Fin 2 → Nat) a + S512x512.size a ≤ S512x4096.size a
  slices_S512x4096_o0_3584_S512x512 : S512x4096.Slices ![0, 3584] S512x512
  inb_S512x512_S512x512_0_0 : ∀ a, (![0, 0] : Fin 2 → Nat) a + S512x512.size a ≤ S512x512.size a
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x4096.size a < S11008x4096.size a
  hwx0_2 : ∀ i : grid0.Coords, EltTy.bits .f32 = 32 ∨ (Rect.unit (s := S11008x4096) (fun a => cc0_transform_2 i a * S512x4096.size a) (fun a => (Pipeline.Clip.of (cc0_transform_2 i a) (S512x4096.size a) (S11008x4096.size a)).extent (S512x4096.size a)) fun a => Pipeline.Clip.inb (Pipeline.Clip.ok_of (hstart0_2 i a))).WholeWords (EltTy.packing .f32)
  hwxs0_2 : ∀ i : grid0.Coords, EltTy.bits .f32 = 32 ∨ (Rect.unit (s := S512x4096) (fun _ => 0) (fun a => (Pipeline.Clip.of (cc0_transform_2 i a) (S512x4096.size a) (S11008x4096.size a)).extent (S512x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x32.size a < S11008x32.size a
  hwx0_3 : ∀ i : grid0.Coords, EltTy.bits .f32 = 32 ∨ (Rect.unit (s := S11008x32) (fun a => cc0_transform_3 i a * S512x32.size a) (fun a => (Pipeline.Clip.of (cc0_transform_3 i a) (S512x32.size a) (S11008x32.size a)).extent (S512x32.size a)) fun a => Pipeline.Clip.inb (Pipeline.Clip.ok_of (hstart0_3 i a))).WholeWords (EltTy.packing .f32)
  hwxs0_3 : ∀ i : grid0.Coords, EltTy.bits .f32 = 32 ∨ (Rect.unit (s := S512x32) (fun _ => 0) (fun a => (Pipeline.Clip.of (cc0_transform_3 i a) (S512x32.size a) (S11008x32.size a)).extent (S512x32.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x32.size a < S11008x32.size a
  hwx0_4 : ∀ i : grid0.Coords, EltTy.bits .f32 = 32 ∨ (Rect.unit (s := S11008x32) (fun a => cc0_transform_4 i a * S512x32.size a) (fun a => (Pipeline.Clip.of (cc0_transform_4 i a) (S512x32.size a) (S11008x32.size a)).extent (S512x32.size a)) fun a => Pipeline.Clip.inb (Pipeline.Clip.ok_of (hstart0_4 i a))).WholeWords (EltTy.packing .f32)
  hwxs0_4 : ∀ i : grid0.Coords, EltTy.bits .f32 = 32 ∨ (Rect.unit (s := S512x32) (fun _ => 0) (fun a => (Pipeline.Clip.of (cc0_transform_4 i a) (S512x32.size a) (S11008x32.size a)).extent (S512x32.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x512.size a < S8192x11008.size a
  hwx0_5 : ∀ i : grid0.Coords, EltTy.bits .f32 = 32 ∨ (Rect.unit (s := S8192x11008) (fun a => cc0_transform_5 i a * S512x512.size a) (fun a => (Pipeline.Clip.of (cc0_transform_5 i a) (S512x512.size a) (S8192x11008.size a)).extent (S512x512.size a)) fun a => Pipeline.Clip.inb (Pipeline.Clip.ok_of (hstart0_5 i a))).WholeWords (EltTy.packing .f32)
  hwxs0_5 : ∀ i : grid0.Coords, EltTy.bits .f32 = 32 ∨ (Rect.unit (s := S512x512) (fun _ => 0) (fun a => (Pipeline.Clip.of (cc0_transform_5 i a) (S512x512.size a) (S8192x11008.size a)).extent (S512x512.size a)) fun a => (Nat.zero_add _).trans_le (Pipeline.Clip.extent_le (Pipeline.Clip.ok_of (hstart0_5 i a)))).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S512x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S512x32.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg4) S512x32.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0) S512x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x1 : Shape := ⟨2, ![8192, 1]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S8192x11008 : Shape := ⟨2, ![8192, 11008]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S11008x4096, .f32⟩
  | .hbm, ⟨3, _⟩ => ⟨S11008x32, .f32⟩
  | .hbm, ⟨4, _⟩ => ⟨S11008x32, .f32⟩
  | .hbm, ⟨5, _⟩ => ⟨S8192x4096, .f32⟩
  | .hbm, ⟨6, _⟩ => ⟨S8192x4096, .f32⟩
  | .hbm, ⟨7, _⟩ => ⟨S11008x32x128, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x32x1, .f32⟩
  | .hbm, ⟨12, _⟩ => ⟨S11008x32x128, .f32⟩
  | .hbm, ⟨13, _⟩ => ⟨S11008x32x128, .f32⟩
  | .hbm, ⟨14, _⟩ => ⟨S11008x4096, .f32⟩
  | .hbm, ⟨15, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S8192x1_S8192x4096_0_1 : S8192x1.BroadcastsInDim S8192x4096 (![0, 1] : Fin 2 → Fin S8192x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.BodyFnBits.lean ====
/-
  What the kernel body leaves in the result's staging buffer, as ONE pure function of what the five input staging
  buffers hold: the eight chunks of 512 input features in order, each chunk's scales, offsets and weights read through
  their rectangles of the buffers, the running sum threaded through the chunks.
-/
import proofs.«174524_j76407468195936_2_alg».proof.Proof.Gen.Kernel.Skeleton
import Idealize.ShloMosaic.Lib.Pipeline.FrameBody

noncomputable section

namespace Cert.Kernel.Qmm

open Idealize.ShloMosaic Idealize.SL.Sem
open Cert.Kernel Cert.Kernel.Gen

variable {F : FTy → Type} [FloatOps F]

/-- The whole activation buffer, the whole scale column, the whole result buffer. -/
abbrev rX : Rect S512x4096 := Rect.unit (s := S512x4096) ![0, 0] S512x4096.size inb_S512x4096_S512x4096_0_0
abbrev rS : Rect S512x1 := Rect.unit (s := S512x1) ![0, 0] S512x1.size inb_S512x1_S512x1_0_0
abbrev rO : Rect S512x512 := Rect.unit (s := S512x512) ![0, 0] S512x512.size inb_S512x512_S512x512_0_0

/-- Chunk `kk`'s four groups of the scale / offset buffers (columns `4 kk ‥ 4 kk + 3`). -/
abbrev rG0 : Rect S512x32 := Rect.unit (s := S512x32) ![0, 0] S512x4.size inb_S512x32_S512x4_0_0
abbrev rG1 : Rect S512x32 := Rect.unit (s := S512x32) ![0, 4] S512x4.size inb_S512x32_S512x4_0_4
abbrev rG2 : Rect S512x32 := Rect.unit (s := S512x32) ![0, 8] S512x4.size inb_S512x32_S512x4_0_8
abbrev rG3 : Rect S512x32 := Rect.unit (s := S512x32) ![0, 12] S512x4.size inb_S512x32_S512x4_0_12
abbrev rG4 : Rect S512x32 := Rect.unit (s := S512x32) ![0, 16] S512x4.size inb_S512x32_S512x4_0_16
abbrev rG5 : Rect S512x32 := Rect.unit (s := S512x32) ![0, 20] S512x4.size inb_S512x32_S512x4_0_20
abbrev rG6 : Rect S512x32 := Rect.unit (s := S512x32) ![0, 24] S512x4.size inb_S512x32_S512x4_0_24
abbrev rG7 : Rect S512x32 := Rect.unit (s := S512x32) ![0, 28] S512x4.size inb_S512x32_S512x4_0_28

/-- Chunk `kk`'s 512 columns of the weight buffer (columns `512 kk ‥ 512 kk + 511`). -/
abbrev rW0 : Rect S512x4096 := Rect.unit (s := S512x4096) ![0, 0] S512x512.size inb_S512x4096_S512x512_0_0
abbrev rW1 : Rect S512x4096 := Rect.unit (s := S512x4096) ![0, 512] S512x512.size inb_S512x4096_S512x512_0_512
abbrev rW2 : Rect S512x4096 := Rect.unit (s := S512x4096) ![0, 1024] S512x512.size inb_S512x4096_S512x512_0_1024
abbrev rW3 : Rect S512x4096 := Rect.unit (s := S512x4096) ![0, 1536] S512x512.size inb_S512x4096_S512x512_0_1536
abbrev rW4 : Rect S512x4096 := Rect.unit (s := S512x4096) ![0, 2048] S512x512.size inb_S512x4096_S512x512_0_2048
abbrev rW5 : Rect S512x4096 := Rect.unit (s := S512x4096) ![0, 2560] S512x512.size inb_S512x4096_S512x512_0_2560
abbrev rW6 : Rect S512x4096 := Rect.unit (s := S512x4096) ![0, 3072] S512x512.size inb_S512x4096_S512x512_0_3072
abbrev rW7 : Rect S512x4096 := Rect.unit (s := S512x4096) ![0, 3584] S512x512.size inb_S512x4096_S512x512_0_3584

/-- The result block the body stores at grid coordinates `i`, from the contents of the activation buffer `x`, the
    scale column `s`, the weight buffer `w`, the weight-scale buffer `ws` and the weight-offset buffer `wo`. -/
def bodyOut (i : grid0.Coords) (x : Vec F S512x4096 .f32) (s : Vec F S512x1 .f32) (w : Vec F S512x4096 .f32)
    (ws wo : Vec F S512x32 .f32) : Vec F S512x512 .f32 :=
  let v5 := k0_pay2 i
  let v9 := k0_pay3 (View.ld x rX) (View.ld s rS)
  let v40 := k0_pay4 i (View.ld x rX) (View.ld s rS) (View.ld ws rG0) (View.ld wo rG0) (View.ld w rW0)
  let v70 := k0_pay5 v5 v9 v40 (View.ld ws rG1) (View.ld wo rG1) (View.ld w rW1)
  let v83 := k0_pay6 (View.ld ws rG2) (View.ld wo rG2) (View.ld w rW2)
  let v130 := k0_pay7 v5 v9 v70 v83 (Scalar.ofBits .f32 0x00000000#32) (View.ld ws rG3) (View.ld wo rG3) (View.ld w rW3)
  let v160 := k0_pay8 v5 v9 v130 (View.ld ws rG4) (View.ld wo rG4) (View.ld w rW4)
  let v173 := k0_pay9 (View.ld ws rG5) (View.ld wo rG5) (View.ld w rW5)
  let v220 := k0_pay10 v5 v9 v160 v173 (Scalar.ofBits .f32 0x00000000#32) (View.ld ws rG6) (View.ld wo rG6) (View.ld w rW6)
  k0_pay1 v5 v9 v220 (View.ld ws rG7) (View.ld wo rG7) (View.ld w rW7)

end Cert.Kernel.Qmm

end
-- ==== Proof.BodySoundBits.lean ====
/-
  The kernel body as a separation-logic triple: on six whole staging buffers, the five inputs at any contents, the
  body runs to the end, faults nowhere, leaves the inputs as they were and the result buffer at `bodyOut` of them.
-/
import proofs.«174524_j76407468195936_2_alg».proof.Proof.BodyFnBits
import proofs.«174524_j76407468195936_2_alg».proof.Proof.Gen.Kernel.Launch
import proofs.«174524_j76407468195936_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Qmm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the inputs at contents `x s w ws wo`, the result's at anything; it ends with the
    inputs as they were and the result's buffer at `bodyOut i x s w ws wo` (its one store covers the buffer). -/
theorem sound_kernel (c : Dev nD) (E : Set ℕ) (i : grid0.Coords)
    (arg2 : Memref sig .tc .vmem S512x4096 .f32) (harg2 : arg2.IsWhole) (arg3 : Memref sig .tc .vmem S512x1 .f32) (harg3 : arg3.IsWhole)
    (arg4 : Memref sig .tc .vmem S512x4096 .f32) (harg4 : arg4.IsWhole) (arg5 : Memref sig .tc .vmem S512x32 .f32) (harg5 : arg5.IsWhole)
    (arg6 : Memref sig .tc .vmem S512x32 .f32) (harg6 : arg6.IsWhole) (arg7 : Memref sig .tc .vmem S512x512 .f32) (harg7 : arg7.IsWhole)
    (x : Vec F S512x4096 .f32) (s : Vec F S512x1 .f32) (w : Vec F S512x4096 .f32) (ws wo : Vec F S512x32 .f32) (K : PUnit → sProp 𝕄) :
    iprop(owns (c : Thread nD τ) arg2 fullShare x ∗ owns (c : Thread nD τ) arg3 fullShare s ∗ owns (c : Thread nD τ) arg4 fullShare w
        ∗ owns (c : Thread nD τ) arg5 fullShare ws ∗ owns (c : Thread nD τ) arg6 fullShare wo ∗ (∃ d, owns (c : Thread nD τ) arg7 fullShare d)
        ∗ (iprop(owns (c : Thread nD τ) arg2 fullShare x ∗ owns (c : Thread nD τ) arg3 fullShare s ∗ owns (c : Thread nD τ) arg4 fullShare w
            ∗ owns (c : Thread nD τ) arg5 fullShare ws ∗ owns (c : Thread nD τ) arg6 fullShare wo
            ∗ owns (c : Thread nD τ) arg7 fullShare (bodyOut i x s w ws wo)) -∗ K ⟨⟩))
      ⊢ wp frame (wpE (defs₀ (F := F)) Variants.none c none) E (cc0__qmm_kernel i arg2 harg2 arg3 harg3 arg4 harg4 arg5 harg5 arg6 harg6 arg7 harg7) K := by
  simp only [cc0__qmm_kernel_eq_skeleton]; unfold cc0__qmm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := funext fun a => by fin_cases a <;> rfl
  rw [View.read_writes_eq_canon _ _ _ (fun y => ⟨_, List.mem_singleton_self _,
      View.mem_set_unit_zero hz inb_S512x512_S512x512_0_0 y⟩), View.canon_unit_zero hz]
  sl_unfold_words
  simp only [View.readAt_eq_ld]
  rfl

end Cert.Kernel.Qmm

end
-- ==== Proof.FrameBits.lean ====
/-
  The frame of the word-level program: it runs to the end, faults nowhere, and its argument arrays end unchanged.

  Nothing is said of what the staging buffers hold: the body runs on ANY contents of its five input buffers (its loads
  are through literal rectangles inside the buffers, its one store covers the result's buffer), so the proof data is
  relational with the relation that holds of everything, and an input array, never written back, ends as it began.
-/
import proofs.«174524_j76407468195936_2_alg».proof.Proof.BodySoundBits
import proofs.«174524_j76407468195936_2_alg».proof.Proof.Gen.Kernel.Frame
import Idealize.ShloMosaic.Lib.Pipeline.Frame

set_option maxRecDepth 16384

noncomputable section

namespace Cert.Kernel.Qmm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of what the body leaves in a staging buffer,
    nothing; the class's invariant; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation: whatever the six current staging buffers hold, the body runs and hands them back. -/
theorem body_obligation (c : Dev nD) : (rdats (F := F) m c).BodyObligation (defs₀ (F := F)) Variants.none () Set.univ := fun t Y _ => by
  rw [bigSep_W0, bigSep_W0]
  rw [show (rdats m c).Φ t.succ = (rdats m c).Φ t.castSucc from rfl,
    show (rdats m c).owesAt () t.succ = (rdats m c).owesAt () t.castSucc from rfl]
  iintro ⟨HΦ, Ho, H0, H1, H2, H3, H4, H5⟩
  iapply (sound_kernel (F := F) c Set.univ (grid0.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  iexists (bodyOut (F := F) (grid0.coords t) (Y 0) (Y 1) (Y 2) (Y 3) (Y 4)); isplitr; · ipureintro; trivial
  iexact H5

set_option backward.isDefEq.respectTransparency.types false in
/-- Every weakly fair execution of @main terminates, nothing faulting, every array of the pipeline at contents the
    relational data allows and every other unscoped buffer as the region found it. -/
theorem run_main : θ_run defs (onTc (τ := τ) (main (F := F))) (s₀ m ρ) (RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- The frame: the five argument arrays are inputs of the pipeline, never written back, so they end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    have h0 := (h c).1 0; have h1 := (h c).1 1; have h2 := (h c).1 2; have h3 := (h c).1 3; have h4 := (h c).1 4
    rw [(rdats m c).ArrAt_in 0 rfl] at h0
    rw [(rdats m c).ArrAt_in 1 rfl] at h1
    rw [(rdats m c).ArrAt_in 2 rfl] at h2
    rw [(rdats m c).ArrAt_in 3 rfl] at h3
    rw [(rdats m c).ArrAt_in 4 rfl] at h4
    exact ⟨h0, h1, h2, h3, h4⟩) (run_main m ρ)

end Cert.Kernel.Qmm

end
-- ==== Proof.BodyFnIdeal.lean ====
/-
  What the kernel body leaves in the result's staging buffer, as ONE pure function of what the five input staging
  buffers hold: the eight chunks of 512 input features in order, each chunk's scales, offsets and weights read through
  their rectangles of the buffers, the running sum threaded through the chunks.
-/
import proofs.«174524_j76407468195936_2_alg».proof.Proof.Gen.KernelIdeal.Skeleton
import Idealize.ShloMosaic.Lib.Pipeline.FrameBody

noncomputable section

namespace Cert.KernelIdeal.Qmm

open Idealize.ShloMosaic Idealize.SL.Sem
open Cert.KernelIdeal Cert.KernelIdeal.Gen

variable {F : FTy → Type} [FloatOps F]

/-- The whole activation buffer, the whole scale column, the whole result buffer. -/
abbrev rX : Rect S512x4096 := Rect.unit (s := S512x4096) ![0, 0] S512x4096.size inb_S512x4096_S512x4096_0_0
abbrev rS : Rect S512x1 := Rect.unit (s := S512x1) ![0, 0] S512x1.size inb_S512x1_S512x1_0_0
abbrev rO : Rect S512x512 := Rect.unit (s := S512x512) ![0, 0] S512x512.size inb_S512x512_S512x512_0_0

/-- Chunk `kk`'s four groups of the scale / offset buffers (columns `4 kk ‥ 4 kk + 3`). -/
abbrev rG0 : Rect S512x32 := Rect.unit (s := S512x32) ![0, 0] S512x4.size inb_S512x32_S512x4_0_0
abbrev rG1 : Rect S512x32 := Rect.unit (s := S512x32) ![0, 4] S512x4.size inb_S512x32_S512x4_0_4
abbrev rG2 : Rect S512x32 := Rect.unit (s := S512x32) ![0, 8] S512x4.size inb_S512x32_S512x4_0_8
abbrev rG3 : Rect S512x32 := Rect.unit (s := S512x32) ![0, 12] S512x4.size inb_S512x32_S512x4_0_12
abbrev rG4 : Rect S512x32 := Rect.unit (s := S512x32) ![0, 16] S512x4.size inb_S512x32_S512x4_0_16
abbrev rG5 : Rect S512x32 := Rect.unit (s := S512x32) ![0, 20] S512x4.size inb_S512x32_S512x4_0_20
abbrev rG6 : Rect S512x32 := Rect.unit (s := S512x32) ![0, 24] S512x4.size inb_S512x32_S512x4_0_24
abbrev rG7 : Rect S512x32 := Rect.unit (s := S512x32) ![0, 28] S512x4.size inb_S512x32_S512x4_0_28

/-- Chunk `kk`'s 512 columns of the weight buffer (columns `512 kk ‥ 512 kk + 511`). -/
abbrev rW0 : Rect S512x4096 := Rect.unit (s := S512x4096) ![0, 0] S512x512.size inb_S512x4096_S512x512_0_0
abbrev rW1 : Rect S512x4096 := Rect.unit (s := S512x4096) ![0, 512] S512x512.size inb_S512x4096_S512x512_0_512
abbrev rW2 : Rect S512x4096 := Rect.unit (s := S512x4096) ![0, 1024] S512x512.size inb_S512x4096_S512x512_0_1024
abbrev rW3 : Rect S512x4096 := Rect.unit (s := S512x4096) ![0, 1536] S512x512.size inb_S512x4096_S512x512_0_1536
abbrev rW4 : Rect S512x4096 := Rect.unit (s := S512x4096) ![0, 2048] S512x512.size inb_S512x4096_S512x512_0_2048
abbrev rW5 : Rect S512x4096 := Rect.unit (s := S512x4096) ![0, 2560] S512x512.size inb_S512x4096_S512x512_0_2560
abbrev rW6 : Rect S512x4096 := Rect.unit (s := S512x4096) ![0, 3072] S512x512.size inb_S512x4096_S512x512_0_3072
abbrev rW7 : Rect S512x4096 := Rect.unit (s := S512x4096) ![0, 3584] S512x512.size inb_S512x4096_S512x512_0_3584

/-- The result block the body stores at grid coordinates `i`, from the contents of the activation buffer `x`, the
    scale column `s`, the weight buffer `w`, the weight-scale buffer `ws` and the weight-offset buffer `wo`. -/
def bodyOut (i : grid0.Coords) (x : Vec F S512x4096 .f32) (s : Vec F S512x1 .f32) (w : Vec F S512x4096 .f32)
    (ws wo : Vec F S512x32 .f32) : Vec F S512x512 .f32 :=
  let v5 := k0_pay2 i
  let v9 := k0_pay3 (View.ld x rX) (View.ld s rS)
  let v40 := k0_pay4 i (View.ld x rX) (View.ld s rS) (View.ld ws rG0) (View.ld wo rG0) (View.ld w rW0)
  let v70 := k0_pay5 v5 v9 v40 (View.ld ws rG1) (View.ld wo rG1) (View.ld w rW1)
  let v83 := k0_pay6 (View.ld ws rG2) (View.ld wo rG2) (View.ld w rW2)
  let v130 := k0_pay7 v5 v9 v70 v83 (Scalar.ofBits .f32 0x00000000#32) (View.ld ws rG3) (View.ld wo rG3) (View.ld w rW3)
  let v160 := k0_pay8 v5 v9 v130 (View.ld ws rG4) (View.ld wo rG4) (View.ld w rW4)
  let v173 := k0_pay9 (View.ld ws rG5) (View.ld wo rG5) (View.ld w rW5)
  let v220 := k0_pay10 v5 v9 v160 v173 (Scalar.ofBits .f32 0x00000000#32) (View.ld ws rG6) (View.ld wo rG6) (View.ld w rW6)
  k0_pay1 v5 v9 v220 (View.ld ws rG7) (View.ld wo rG7) (View.ld w rW7)

end Cert.KernelIdeal.Qmm

end
-- ==== Proof.BodySoundIdeal.lean ====
/-
  The kernel body as a separation-logic triple: on six whole staging buffers, the five inputs at any contents, the
  body runs to the end, faults nowhere, leaves the inputs as they were and the result buffer at `bodyOut` of them.
-/
import proofs.«174524_j76407468195936_2_alg».proof.Proof.BodyFnIdeal
import proofs.«174524_j76407468195936_2_alg».proof.Proof.Gen.KernelIdeal.Launch
import proofs.«174524_j76407468195936_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Qmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the inputs at contents `x s w ws wo`, the result's at anything; it ends with the
    inputs as they were and the result's buffer at `bodyOut i x s w ws wo` (its one store covers the buffer). -/
theorem sound_kernel (c : Dev nD) (E : Set ℕ) (i : grid0.Coords)
    (arg2 : Memref sig .tc .vmem S512x4096 .f32) (harg2 : arg2.IsWhole) (arg3 : Memref sig .tc .vmem S512x1 .f32) (harg3 : arg3.IsWhole)
    (arg4 : Memref sig .tc .vmem S512x4096 .f32) (harg4 : arg4.IsWhole) (arg5 : Memref sig .tc .vmem S512x32 .f32) (harg5 : arg5.IsWhole)
    (arg6 : Memref sig .tc .vmem S512x32 .f32) (harg6 : arg6.IsWhole) (arg7 : Memref sig .tc .vmem S512x512 .f32) (harg7 : arg7.IsWhole)
    (x : Vec F S512x4096 .f32) (s : Vec F S512x1 .f32) (w : Vec F S512x4096 .f32) (ws wo : Vec F S512x32 .f32) (K : PUnit → sProp 𝕄) :
    iprop(owns (c : Thread nD τ) arg2 fullShare x ∗ owns (c : Thread nD τ) arg3 fullShare s ∗ owns (c : Thread nD τ) arg4 fullShare w
        ∗ owns (c : Thread nD τ) arg5 fullShare ws ∗ owns (c : Thread nD τ) arg6 fullShare wo ∗ (∃ d, owns (c : Thread nD τ) arg7 fullShare d)
        ∗ (iprop(owns (c : Thread nD τ) arg2 fullShare x ∗ owns (c : Thread nD τ) arg3 fullShare s ∗ owns (c : Thread nD τ) arg4 fullShare w
            ∗ owns (c : Thread nD τ) arg5 fullShare ws ∗ owns (c : Thread nD τ) arg6 fullShare wo
            ∗ owns (c : Thread nD τ) arg7 fullShare (bodyOut i x s w ws wo)) -∗ K ⟨⟩))
      ⊢ wp frame (wpE (defs₀ (F := F)) Variants.none c none) E (cc0__qmm_kernel i arg2 harg2 arg3 harg3 arg4 harg4 arg5 harg5 arg6 harg6 arg7 harg7) K := by
  simp only [cc0__qmm_kernel_eq_skeleton]; unfold cc0__qmm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := funext fun a => by fin_cases a <;> rfl
  rw [View.read_writes_eq_canon _ _ _ (fun y => ⟨_, List.mem_singleton_self _,
      View.mem_set_unit_zero hz inb_S512x512_S512x512_0_0 y⟩), View.canon_unit_zero hz]
  sl_unfold_words
  simp only [View.readAt_eq_ld]
  rfl

end Cert.KernelIdeal.Qmm

end
-- ==== Proof.Spec.lean ====
/-
  The function both programs compute, index by index, on the extended reals.

  Activations are dequantized by a per-token scale, `x[t,k] = qx[t,k] * sx[t,0]`; weights group by group along
  the input features, 128 consecutive features to a group, `W[o,k] = (w[o,k] - off[o,k/128]) * sc[o,k/128]`;
  the result is the linear layer `out[t,o] = ∑ k < 4096, x[t,k] * W[o,k]`.
-/
import Idealize.ShloMosaic.PureOps.Ideal
import Idealize.ShloMosaic.Lib.ValueIdx

noncomputable section

open scoped BigOperators

namespace Cert.QmmSpec

open Idealize.ShloMosaic Idealize.ShloMosaic.ValueIdx

/-- The quantization group of input feature `k`: 128 consecutive features share one scale and one offset. -/
def grp (k : Fin 4096) : Fin 32 := ⟨k.val / 128, by have := k.isLt; omega⟩

/-- The dequantized activation `x[t,k] = qx[t,k] * sx[t,0]`. -/
def xdeq (qx : (⟨2, ![8192, 4096]⟩ : Shape).Idx → EReal) (sx : (⟨2, ![8192, 1]⟩ : Shape).Idx → EReal)
    (t : Fin 8192) (k : Fin 4096) : EReal :=
  qx (ix2 t k) * sx (ix2 t (0 : Fin 1))

/-- The dequantized weight `W[o,k] = (w[o,k] - off[o,k/128]) * sc[o,k/128]`. -/
def wdeq (w : (⟨2, ![11008, 4096]⟩ : Shape).Idx → EReal) (sc off : (⟨2, ![11008, 32]⟩ : Shape).Idx → EReal)
    (o : Fin 11008) (k : Fin 4096) : EReal :=
  (w (ix2 o k) - off (ix2 o (grp k))) * sc (ix2 o (grp k))

/-- The linear layer on the dequantized operands: `out[t,o] = ∑ k, x[t,k] * W[o,k]`. -/
def G (qx : (⟨2, ![8192, 4096]⟩ : Shape).Idx → EReal) (sx : (⟨2, ![8192, 1]⟩ : Shape).Idx → EReal)
    (w : (⟨2, ![11008, 4096]⟩ : Shape).Idx → EReal) (sc off : (⟨2, ![11008, 32]⟩ : Shape).Idx → EReal) :
    (⟨2, ![8192, 11008]⟩ : Shape).Idx → EReal :=
  fun i => ∑ k : Fin 4096, xdeq qx sx (i 0) k * wdeq w sc off (i 1) k

end Cert.QmmSpec

end
-- ==== Proof.FrameIdeal.lean ====
/-
  The idealized kernel's run with every array named: proof data that says what each staging buffer holds after the
  body at each grid point, the body obligation, the run, the frame, and the result array after the run.

  The grid is 16 x 22 points; point (i, j) stages rows 512 i ‥ 512 i + 511 of the activations and of their scale
  column, rows 512 j ‥ 512 j + 511 of the weights, weight scales and weight offsets, and writes back columns
  512 j ‥ 512 j + 511 of rows 512 i ‥ of the result. 11008 = 21 * 512 + 256: at j = 21 the weight-side blocks and
  the result's block overhang their arrays by 256 rows (columns). The transfers are cut at the arrays' ends, so the
  overhanging rows of the weight-side staging buffers hold words nothing names, and only the first 256 columns of
  the result's buffer are written back. What the obligation states of those buffers is therefore stated on the part
  inside the arrays: there the result block is block (i, j) of the specification `G` of the argument arrays
  (`ValueAt`, proved from the body's arithmetic in another module); what the body computed from the unnamed rows
  lands in columns that are never written back.
-/
import proofs.«174524_j76407468195936_2_alg».proof.Proof.BodySoundIdeal
import proofs.«174524_j76407468195936_2_alg».proof.Proof.Spec
import proofs.«174524_j76407468195936_2_alg».proof.Proof.Gen.KernelIdeal.Frame
import Idealize.ShloMosaic.Lib.Pipeline.Frame
import Idealize.ShloMosaic.Lib.Pipeline.Value

set_option maxRecDepth 16384

noncomputable section

namespace Cert.KernelIdeal.Qmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The specification of the argument arrays on device `c`: what the result array is shown to end holding. -/
def Garr (c : Dev nD) : Buf (Elt Ideal) ((c : Thread nD τ).loc main_v0) :=
  Cert.QmmSpec.G (m ((c : Thread nD τ).loc main_arg0)) (m ((c : Thread nD τ).loc main_arg1))
    (m ((c : Thread nD τ).loc main_arg2)) (m ((c : Thread nD τ).loc main_arg3)) (m ((c : Thread nD τ).loc main_arg4))

/-- The proof data. After the body at point `t`: the activations' and their scales' buffers hold their blocks (those
    blocks tile their arrays); the three weight-side buffers hold their blocks on the rows inside the arrays, filled out
    with the zero word past the arrays' end (a filler nothing reads: the obligation is stated on the rows inside);
    the result's buffer holds block `t` of `G` on the columns inside the array, filled out likewise. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => FloatOps.ofBits (F := Ideal) FTy.f32 0#32) (iblk m c 2 t)
    | ⟨3, _⟩ => win0_3.fill (grid0.coords t) (fun _ => FloatOps.ofBits (F := Ideal) FTy.f32 0#32) (iblk m c 3 t)
    | ⟨4, _⟩ => win0_4.fill (grid0.coords t) (fun _ => FloatOps.ofBits (F := Ideal) FTy.f32 0#32) (iblk m c 4 t)
    | ⟨5, _⟩ => win0_5.fill (grid0.coords t) (fun _ => FloatOps.ofBits (F := Ideal) FTy.f32 0#32) ((win0_5.blk t).view.read (Elt Ideal) (Garr m c))
  Φ _ := Pipeline.ΦA spec0 c
  q _ := fullShare
  owed _ := 0

/-- The result's window is never fetched. -/
theorem fetch0_5 : ∀ t : Fin cfg0.N, (cfg0.win 5).fetch t = false :=
  (by decide +kernel : ∀ t : Fin grid0.N, win0_5.fetch t = false)

/-- What the body finds: the activations' and scales' buffers at their blocks (fetched at this point or kept from
    the last point that fetched them); -/
theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
/-- the three weight-side buffers just fetched — the block on the rows inside the array, `d` elsewhere —; -/
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl
theorem before_4 (c : Dev nD) (t : Fin cfg0.N) (d) :
    (dats m 0 c).before 4 t d = win0_4.fill (grid0.coords t) d (iblk m c 4 t) := by
  unfold Dat.before; rw [if_pos (fetch0_4 t)]; rfl
/-- the result's buffer at contents nothing names (it was written back at the point before). -/
theorem before_5 (c : Dev nD) (t : Fin cfg0.N) (d) : (dats m 0 c).before 5 t d = d := by
  unfold Dat.before
  rw [if_neg (by rw [fetch0_5 t]; exact Bool.false_ne_true)]
  by_cases h0 : t.val = 0
  · rw [if_pos h0]
  · rw [if_neg h0]; exact if_pos (flush0_5 _)

/-- THE VALUE FACT the obligation rests on: at every point, whatever the weight-side buffers hold past the arrays'
    end, the part of the body's result block that is written back is block `t` of `G`. -/
def ValueAt (c : Dev nD) : Prop :=
  ∀ (t : Fin cfg0.N) (d2 : S512x4096.Idx → Elt Ideal .f32) (d3 d4 : S512x32.Idx → Elt Ideal .f32),
    win0_5.cut (grid0.coords t)
        (bodyOut (F := Ideal) (grid0.coords t) (iblk m c 0 t) (iblk m c 1 t) (win0_2.fill (grid0.coords t) d2 (iblk m c 2 t))
          (win0_3.fill (grid0.coords t) d3 (iblk m c 3 t)) (win0_4.fill (grid0.coords t) d4 (iblk m c 4 t)))
      = (win0_5.blk t).view.read (Elt Ideal) (Garr m c)

/-- The body obligation: the input buffers arrive as `before_…` says and leave as they came, which on the rows inside
    the arrays is what the proof data names; the result's buffer leaves at the body's result block, whose written-back
    part is `G`'s block (`ValueAt`). -/
theorem body_obligation (c : Dev nD) (hv : ValueAt m c) :
    BodyObligationLoose (dats m 0 c) (defs₀ (F := Ideal)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := Ideal)) Variants.none c none) Set.univ (bodyAt0 t) (fun _ => iprop(
      (dats m 0 c).Φ t.castSucc ∗ (dats m 0 c).owesAt () t.castSucc
      ∗ owns (c : Thread nD τ) (st0_0 t) fullShare (iblk m c 0 t)
      ∗ owns (c : Thread nD τ) (st0_1 t) fullShare (iblk m c 1 t)
      ∗ (∃ d, owns (c : Thread nD τ) (st0_2 t) fullShare (win0_2.fill (grid0.coords t) d (win0_2.cut (grid0.coords t) (win0_2.fill (grid0.coords t) (fun _ => FloatOps.ofBits (F := Ideal) FTy.f32 0#32) (iblk m c 2 t)))))
      ∗ (∃ d, owns (c : Thread nD τ) (st0_3 t) fullShare (win0_3.fill (grid0.coords t) d (win0_3.cut (grid0.coords t) (win0_3.fill (grid0.coords t) (fun _ => FloatOps.ofBits (F := Ideal) FTy.f32 0#32) (iblk m c 3 t)))))
      ∗ (∃ d, owns (c : Thread nD τ) (st0_4 t) fullShare (win0_4.fill (grid0.coords t) d (win0_4.cut (grid0.coords t) (win0_4.fill (grid0.coords t) (fun _ => FloatOps.ofBits (F := Ideal) FTy.f32 0#32) (iblk m c 4 t)))))
      ∗ (∃ d, owns (c : Thread nD τ) (st0_5 t) fullShare (win0_5.fill (grid0.coords t) d (win0_5.cut (grid0.coords t) (win0_5.fill (grid0.coords t) (fun _ => FloatOps.ofBits (F := Ideal) FTy.f32 0#32) ((win0_5.blk t).view.read (Elt Ideal) (Garr m c))))))))
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (sound_kernel (F := Ideal) c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists d2; rw [win0_2.cut_fill]; iexact H2
  isplitl [H3]
  · iexists d3; rw [win0_3.cut_fill]; iexact H3
  isplitl [H4]
  · iexists d4; rw [win0_4.cut_fill]; iexact H4
  · iexists (bodyOut (F := Ideal) (grid0.coords t) (iblk m c 0 t) (iblk m c 1 t) (win0_2.fill (grid0.coords t) d2 (iblk m c 2 t))
      (win0_3.fill (grid0.coords t) d3 (iblk m c 3 t)) (win0_4.fill (grid0.coords t) d4 (iblk m c 4 t)))
    rw [win0_5.cut_fill, ← hv t d2 d3 d4, win0_5.fill_cut]; iexact H5

set_option backward.isDefEq.respectTransparency.types false in
/-- Every weakly fair execution of @main terminates, nothing faulting, with every array of the pipeline at what the
    library computes from the proof data. -/
theorem run_main (hv : ∀ c, ValueAt m c) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c (hv c)) (hshare := fun c => (dats m 0 c).share_full fun _ => rfl)
    (howed := fun _ _ => rfl) (V := V m) (hmain := hmain m Variants.none) (hA := fun _ _ => rfl) (hΦ := fun _ _ => rfl)

end Cert.KernelIdeal.Qmm

end
-- ==== Proof.GridFacts.lean ====
/-
  The grid's arithmetic: where each window's block sits at each of the 16 x 22 grid points.

  At point (i, j) the activations' block is rows [512 i, 512 i + 512) of all 4096 features, and so is the activation
  scales' column block; the weights' block is rows [512 j, 512 j + 512) of the weight array cut at its end, row 11008
  (11008 = 21 * 512 + 256, so the last block keeps 256 rows), and so are the weight scales' and offsets' blocks; the
  result's block is rows [512 i, 512 i + 512) and columns [512 j, 512 j + 512) cut at column 11008. Every fact about
  the printed index maps and cuts is decided once over the grid's points; what follows from them is linear arithmetic.
-/
import proofs.«174524_j76407468195936_2_alg».proof.Proof.Gen.KernelIdeal.Points
import proofs.«174524_j76407468195936_2_alg».proof.Proof.Gen.KernelIdeal.Launch
import Idealize.ShloMosaic.Lib.Pipeline.Value
import Idealize.ShloMosaic.Lib.ValueIdx

set_option maxRecDepth 16384
-- one grid-wide decision at a time: several at once hold several times the memory
set_option Elab.async false

noncomputable section

namespace Cert.KernelIdeal.QmmGrid

open Cert.KernelIdeal Cert.KernelIdeal.Gen Idealize.ShloMosaic Idealize.ShloMosaic.ValueIdx

/-! ## The index maps and the cuts, decided over the grid -/

/-- The block indices: the row-blocked windows move with the result's row block, the weight-side windows with its
    column block, each at block index 0 on its other axis; the result's block index is the grid point's coordinates. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = win0_5.index t (1 : Fin 2)
    ∧ win0_2.index t (1 : Fin 2) = 0
    ∧ win0_3.index t (0 : Fin 2) = win0_5.index t (1 : Fin 2)
    ∧ win0_3.index t (1 : Fin 2) = 0
    ∧ win0_4.index t (0 : Fin 2) = win0_5.index t (1 : Fin 2)
    ∧ win0_4.index t (1 : Fin 2) = 0
    ∧ (grid0.coords t (0 : Fin 2)).val = win0_5.index t (0 : Fin 2)
    ∧ (grid0.coords t (1 : Fin 2)).val = win0_5.index t (1 : Fin 2)
    ∧ win0_5.index t (0 : Fin 2) ≤ 15
    ∧ win0_5.index t (1 : Fin 2) ≤ 21 :=
  (by decide +kernel : ∀ t : Fin grid0.N, _)

/-- The cut sizes: the result's block keeps all 512 rows and the columns up to column 11008; the weight-side blocks keep
    as many rows as the result's block keeps columns, and all of their other axis. -/
theorem xsize_facts : ∀ t : Fin cfg0.N, win0_5.xsize (grid0.coords t) (0 : Fin 2) = 512
    ∧ win0_5.xsize (grid0.coords t) (1 : Fin 2) = min 512 (11008 - win0_5.index t (1 : Fin 2) * 512)
    ∧ win0_2.xsize (grid0.coords t) (0 : Fin 2) = win0_5.xsize (grid0.coords t) (1 : Fin 2)
    ∧ win0_2.xsize (grid0.coords t) (1 : Fin 2) = 4096
    ∧ win0_3.xsize (grid0.coords t) (0 : Fin 2) = win0_5.xsize (grid0.coords t) (1 : Fin 2)
    ∧ win0_3.xsize (grid0.coords t) (1 : Fin 2) = 32
    ∧ win0_4.xsize (grid0.coords t) (0 : Fin 2) = win0_5.xsize (grid0.coords t) (1 : Fin 2)
    ∧ win0_4.xsize (grid0.coords t) (1 : Fin 2) = 32 :=
  (by decide +kernel : ∀ t : Fin grid0.N, _)

/-- The point in row-major position q0 * 22 + q1 is one of the grid's 352. -/
theorem pt_lt (q0 : Fin 16) (q1 : Fin 22) : q0.val * 22 + q1.val < cfg0.N := by
  have h0 := q0.isLt
  have h1 := q1.isLt
  show q0.val * 22 + q1.val < grid0.N
  rw [N_0]; omega

/-- At that point the result's block index is (q0, q1). -/
theorem idx_at : ∀ (q0 : Fin 16) (q1 : Fin 22), win0_5.index ⟨q0.val * 22 + q1.val, pt_lt q0 q1⟩ = ![q0.val, q1.val] := by
  decide +kernel

/-- Every block index of the result's 16 x 22 blocks is some point's. -/
theorem idx_onto : ∀ (q0 : Fin 16) (q1 : Fin 22), ∃ t : Fin cfg0.N, win0_5.index t = ![q0.val, q1.val] :=
  fun q0 q1 => ⟨_, idx_at q0 q1⟩

/-! ## The result's blocks cover the result -/

/-- An index of the result is in point t's block iff each coordinate is in the block's range on its axis, the range cut at
    the array's end. -/
theorem mem_blk5 (t : Fin cfg0.N) (i : S8192x11008.Idx) :
    i ∈ ((cfg0.win 5).blk t).view.set ↔ ∀ a : Fin 2, win0_5.index t a * S512x512.size a ≤ (i a).val
      ∧ (i a).val < win0_5.index t a * S512x512.size a + win0_5.xsize (grid0.coords t) a := by
  show i ∈ ((View.whole main_v0).slice (win0_5.rect t)).set ↔ _
  rw [View.set_slice_whole, Rect.mem_set_unit]
  exact Iff.rfl

/-- Every index (r, o) of the result is written back by the point whose block index is (r / 512, o / 512). -/
theorem cover5 : ∀ i : S8192x11008.Idx, ∃ t : Fin cfg0.N, (cfg0.win 5).flush t = true ∧ i ∈ ((cfg0.win 5).blk t).view.set := by
  intro i
  have hi0 : (i 0).val < 8192 := (i 0).isLt
  have hi1 : (i 1).val < 11008 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  obtain ⟨x0, x1, -⟩ := xsize_facts t
  refine ⟨t, flush0_5 t, ?_⟩
  rw [mem_blk5]
  intro a
  match a with
  | ⟨0, _⟩ =>
    show win0_5.index t (0 : Fin 2) * 512 ≤ (i 0).val
      ∧ (i 0).val < win0_5.index t (0 : Fin 2) * 512 + win0_5.xsize (grid0.coords t) (0 : Fin 2)
    omega
  | ⟨1, _⟩ =>
    show win0_5.index t (1 : Fin 2) * 512 ≤ (i 1).val
      ∧ (i 1).val < win0_5.index t (1 : Fin 2) * 512 + win0_5.xsize (grid0.coords t) (1 : Fin 2)
    omega

/-! ## The blocks' embeddings, by coordinates

An index of a cut block sits in the array at the block's offset plus itself, on each axis. The in-range proofs are read
off the embedding itself, whose values are indices of the array. -/

/-- Window 0 (the activations): a block index's row lies inside the array … -/
theorem emb0_lt0 (t : Fin cfg0.N) (j : (win0_0.xblock (grid0.coords t)).Idx) :
    win0_0.index t (0 : Fin 2) * 512 + (j (0 : Fin 2)).val < 8192 := by
  have h : (((cfg0.win 0).blk t).view.emb j (0 : Fin 2)).val < 8192 := (((cfg0.win 0).blk t).view.emb j (0 : Fin 2)).isLt
  have e : (((cfg0.win 0).blk t).view.emb j (0 : Fin 2)).val = win0_0.index t (0 : Fin 2) * 512 + 1 * (j (0 : Fin 2)).val := rfl
  omega
/-- … and so does its column. -/
theorem emb0_lt1 (t : Fin cfg0.N) (j : (win0_0.xblock (grid0.coords t)).Idx) :
    win0_0.index t (1 : Fin 2) * 4096 + (j (1 : Fin 2)).val < 4096 := by
  have h : (((cfg0.win 0).blk t).view.emb j (1 : Fin 2)).val < 4096 := (((cfg0.win 0).blk t).view.emb j (1 : Fin 2)).isLt
  have e : (((cfg0.win 0).blk t).view.emb j (1 : Fin 2)).val = win0_0.index t (1 : Fin 2) * 4096 + 1 * (j (1 : Fin 2)).val := rfl
  omega
/-- The block's index (r, k) is the array's index (block row * 512 + r, block column * 4096 + k). -/
theorem emb0 (t : Fin cfg0.N) (j : (win0_0.xblock (grid0.coords t)).Idx) :
    ((cfg0.win 0).blk t).view.emb j
      = ix2 (⟨win0_0.index t (0 : Fin 2) * 512 + (j (0 : Fin 2)).val, emb0_lt0 t j⟩ : Fin 8192)
          (⟨win0_0.index t (1 : Fin 2) * 4096 + (j (1 : Fin 2)).val, emb0_lt1 t j⟩ : Fin 4096) := by
  funext a; apply Fin.ext
  match a with
  | ⟨0, _⟩ => show win0_0.index t (0 : Fin 2) * 512 + 1 * (j (0 : Fin 2)).val = win0_0.index t (0 : Fin 2) * 512 + (j (0 : Fin 2)).val; omega
  | ⟨1, _⟩ => show win0_0.index t (1 : Fin 2) * 4096 + 1 * (j (1 : Fin 2)).val = win0_0.index t (1 : Fin 2) * 4096 + (j (1 : Fin 2)).val; omega

/-- Window 1 (the activation scales): a block index's row lies inside the array … -/
theorem emb1_lt0 (t : Fin cfg0.N) (j : (win0_1.xblock (grid0.coords t)).Idx) :
    win0_1.index t (0 : Fin 2) * 512 + (j (0 : Fin 2)).val < 8192 := by
  have h : (((cfg0.win 1).blk t).view.emb j (0 : Fin 2)).val < 8192 := (((cfg0.win 1).blk t).view.emb j (0 : Fin 2)).isLt
  have e : (((cfg0.win 1).blk t).view.emb j (0 : Fin 2)).val = win0_1.index t (0 : Fin 2) * 512 + 1 * (j (0 : Fin 2)).val := rfl
  omega
/-- … and so does its column. -/
theorem emb1_lt1 (t : Fin cfg0.N) (j : (win0_1.xblock (grid0.coords t)).Idx) :
    win0_1.index t (1 : Fin 2) * 1 + (j (1 : Fin 2)).val < 1 := by
  have h : (((cfg0.win 1).blk t).view.emb j (1 : Fin 2)).val < 1 := (((cfg0.win 1).blk t).view.emb j (1 : Fin 2)).isLt
  have e : (((cfg0.win 1).blk t).view.emb j (1 : Fin 2)).val = win0_1.index t (1 : Fin 2) * 1 + 1 * (j (1 : Fin 2)).val := rfl
  omega
/-- The block's index (r, k) is the array's index (block row * 512 + r, block column * 1 + k). -/
theorem emb1 (t : Fin cfg0.N) (j : (win0_1.xblock (grid0.coords t)).Idx) :
    ((cfg0.win 1).blk t).view.emb j
      = ix2 (⟨win0_1.index t (0 : Fin 2) * 512 + (j (0 : Fin 2)).val, emb1_lt0 t j⟩ : Fin 8192)
          (⟨win0_1.index t (1 : Fin 2) * 1 + (j (1 : Fin 2)).val, emb1_lt1 t j⟩ : Fin 1) := by
  funext a; apply Fin.ext
  match a with
  | ⟨0, _⟩ => show win0_1.index t (0 : Fin 2) * 512 + 1 * (j (0 : Fin 2)).val = win0_1.index t (0 : Fin 2) * 512 + (j (0 : Fin 2)).val; omega
  | ⟨1, _⟩ => show win0_1.index t (1 : Fin 2) * 1 + 1 * (j (1 : Fin 2)).val = win0_1.index t (1 : Fin 2) * 1 + (j (1 : Fin 2)).val; omega

/-- Window 2 (the weights): a block index's row lies inside the array … -/
theorem emb2_lt0 (t : Fin cfg0.N) (j : (win0_2.xblock (grid0.coords t)).Idx) :
    win0_2.index t (0 : Fin 2) * 512 + (j (0 : Fin 2)).val < 11008 := by
  have h : (((cfg0.win 2).blk t).view.emb j (0 : Fin 2)).val < 11008 := (((cfg0.win 2).blk t).view.emb j (0 : Fin 2)).isLt
  have e : (((cfg0.win 2).blk t).view.emb j (0 : Fin 2)).val = win0_2.index t (0 : Fin 2) * 512 + 1 * (j (0 : Fin 2)).val := rfl
  omega
/-- … and so does its column. -/
theorem emb2_lt1 (t : Fin cfg0.N) (j : (win0_2.xblock (grid0.coords t)).Idx) :
    win0_2.index t (1 : Fin 2) * 4096 + (j (1 : Fin 2)).val < 4096 := by
  have h : (((cfg0.win 2).blk t).view.emb j (1 : Fin 2)).val < 4096 := (((cfg0.win 2).blk t).view.emb j (1 : Fin 2)).isLt
  have e : (((cfg0.win 2).blk t).view.emb j (1 : Fin 2)).val = win0_2.index t (1 : Fin 2) * 4096 + 1 * (j (1 : Fin 2)).val := rfl
  omega
/-- The block's index (r, k) is the array's index (block row * 512 + r, block column * 4096 + k). -/
theorem emb2 (t : Fin cfg0.N) (j : (win0_2.xblock (grid0.coords t)).Idx) :
    ((cfg0.win 2).blk t).view.emb j
      = ix2 (⟨win0_2.index t (0 : Fin 2) * 512 + (j (0 : Fin 2)).val, emb2_lt0 t j⟩ : Fin 11008)
          (⟨win0_2.index t (1 : Fin 2) * 4096 + (j (1 : Fin 2)).val, emb2_lt1 t j⟩ : Fin 4096) := by
  funext a; apply Fin.ext
  match a with
  | ⟨0, _⟩ => show win0_2.index t (0 : Fin 2) * 512 + 1 * (j (0 : Fin 2)).val = win0_2.index t (0 : Fin 2) * 512 + (j (0 : Fin 2)).val; omega
  | ⟨1, _⟩ => show win0_2.index t (1 : Fin 2) * 4096 + 1 * (j (1 : Fin 2)).val = win0_2.index t (1 : Fin 2) * 4096 + (j (1 : Fin 2)).val; omega

/-- Window 3 (the weight scales): a block index's row lies inside the array … -/
theorem emb3_lt0 (t : Fin cfg0.N) (j : (win0_3.xblock (grid0.coords t)).Idx) :
    win0_3.index t (0 : Fin 2) * 512 + (j (0 : Fin 2)).val < 11008 := by
  have h : (((cfg0.win 3).blk t).view.emb j (0 : Fin 2)).val < 11008 := (((cfg0.win 3).blk t).view.emb j (0 : Fin 2)).isLt
  have e : (((cfg0.win 3).blk t).view.emb j (0 : Fin 2)).val = win0_3.index t (0 : Fin 2) * 512 + 1 * (j (0 : Fin 2)).val := rfl
  omega
/-- … and so does its column. -/
theorem emb3_lt1 (t : Fin cfg0.N) (j : (win0_3.xblock (grid0.coords t)).Idx) :
    win0_3.index t (1 : Fin 2) * 32 + (j (1 : Fin 2)).val < 32 := by
  have h : (((cfg0.win 3).blk t).view.emb j (1 : Fin 2)).val < 32 := (((cfg0.win 3).blk t).view.emb j (1 : Fin 2)).isLt
  have e : (((cfg0.win 3).blk t).view.emb j (1 : Fin 2)).val = win0_3.index t (1 : Fin 2) * 32 + 1 * (j (1 : Fin 2)).val := rfl
  omega
/-- The block's index (r, k) is the array's index (block row * 512 + r, block column * 32 + k). -/
theorem emb3 (t : Fin cfg0.N) (j : (win0_3.xblock (grid0.coords t)).Idx) :
    ((cfg0.win 3).blk t).view.emb j
      = ix2 (⟨win0_3.index t (0 : Fin 2) * 512 + (j (0 : Fin 2)).val, emb3_lt0 t j⟩ : Fin 11008)
          (⟨win0_3.index t (1 : Fin 2) * 32 + (j (1 : Fin 2)).val, emb3_lt1 t j⟩ : Fin 32) := by
  funext a; apply Fin.ext
  match a with
  | ⟨0, _⟩ => show win0_3.index t (0 : Fin 2) * 512 + 1 * (j (0 : Fin 2)).val = win0_3.index t (0 : Fin 2) * 512 + (j (0 : Fin 2)).val; omega
  | ⟨1, _⟩ => show win0_3.index t (1 : Fin 2) * 32 + 1 * (j (1 : Fin 2)).val = win0_3.index t (1 : Fin 2) * 32 + (j (1 : Fin 2)).val; omega

/-- Window 4 (the weight offsets): a block index's row lies inside the array … -/
theorem emb4_lt0 (t : Fin cfg0.N) (j : (win0_4.xblock (grid0.coords t)).Idx) :
    win0_4.index t (0 : Fin 2) * 512 + (j (0 : Fin 2)).val < 11008 := by
  have h : (((cfg0.win 4).blk t).view.emb j (0 : Fin 2)).val < 11008 := (((cfg0.win 4).blk t).view.emb j (0 : Fin 2)).isLt
  have e : (((cfg0.win 4).blk t).view.emb j (0 : Fin 2)).val = win0_4.index t (0 : Fin 2) * 512 + 1 * (j (0 : Fin 2)).val := rfl
  omega
/-- … and so does its column. -/
theorem emb4_lt1 (t : Fin cfg0.N) (j : (win0_4.xblock (grid0.coords t)).Idx) :
    win0_4.index t (1 : Fin 2) * 32 + (j (1 : Fin 2)).val < 32 := by
  have h : (((cfg0.win 4).blk t).view.emb j (1 : Fin 2)).val < 32 := (((cfg0.win 4).blk t).view.emb j (1 : Fin 2)).isLt
  have e : (((cfg0.win 4).blk t).view.emb j (1 : Fin 2)).val = win0_4.index t (1 : Fin 2) * 32 + 1 * (j (1 : Fin 2)).val := rfl
  omega
/-- The block's index (r, k) is the array's index (block row * 512 + r, block column * 32 + k). -/
theorem emb4 (t : Fin cfg0.N) (j : (win0_4.xblock (grid0.coords t)).Idx) :
    ((cfg0.win 4).blk t).view.emb j
      = ix2 (⟨win0_4.index t (0 : Fin 2) * 512 + (j (0 : Fin 2)).val, emb4_lt0 t j⟩ : Fin 11008)
          (⟨win0_4.index t (1 : Fin 2) * 32 + (j (1 : Fin 2)).val, emb4_lt1 t j⟩ : Fin 32) := by
  funext a; apply Fin.ext
  match a with
  | ⟨0, _⟩ => show win0_4.index t (0 : Fin 2) * 512 + 1 * (j (0 : Fin 2)).val = win0_4.index t (0 : Fin 2) * 512 + (j (0 : Fin 2)).val; omega
  | ⟨1, _⟩ => show win0_4.index t (1 : Fin 2) * 32 + 1 * (j (1 : Fin 2)).val = win0_4.index t (1 : Fin 2) * 32 + (j (1 : Fin 2)).val; omega

/-- Window 5 (the result): a block index's row lies inside the array … -/
theorem emb5_lt0 (t : Fin cfg0.N) (j : (win0_5.xblock (grid0.coords t)).Idx) :
    win0_5.index t (0 : Fin 2) * 512 + (j (0 : Fin 2)).val < 8192 := by
  have h : (((cfg0.win 5).blk t).view.emb j (0 : Fin 2)).val < 8192 := (((cfg0.win 5).blk t).view.emb j (0 : Fin 2)).isLt
  have e : (((cfg0.win 5).blk t).view.emb j (0 : Fin 2)).val = win0_5.index t (0 : Fin 2) * 512 + 1 * (j (0 : Fin 2)).val := rfl
  omega
/-- … and so does its column. -/
theorem emb5_lt1 (t : Fin cfg0.N) (j : (win0_5.xblock (grid0.coords t)).Idx) :
    win0_5.index t (1 : Fin 2) * 512 + (j (1 : Fin 2)).val < 11008 := by
  have h : (((cfg0.win 5).blk t).view.emb j (1 : Fin 2)).val < 11008 := (((cfg0.win 5).blk t).view.emb j (1 : Fin 2)).isLt
  have e : (((cfg0.win 5).blk t).view.emb j (1 : Fin 2)).val = win0_5.index t (1 : Fin 2) * 512 + 1 * (j (1 : Fin 2)).val := rfl
  omega
/-- The block's index (r, k) is the array's index (block row * 512 + r, block column * 512 + k). -/
theorem emb5 (t : Fin cfg0.N) (j : (win0_5.xblock (grid0.coords t)).Idx) :
    ((cfg0.win 5).blk t).view.emb j
      = ix2 (⟨win0_5.index t (0 : Fin 2) * 512 + (j (0 : Fin 2)).val, emb5_lt0 t j⟩ : Fin 8192)
          (⟨win0_5.index t (1 : Fin 2) * 512 + (j (1 : Fin 2)).val, emb5_lt1 t j⟩ : Fin 11008) := by
  funext a; apply Fin.ext
  match a with
  | ⟨0, _⟩ => show win0_5.index t (0 : Fin 2) * 512 + 1 * (j (0 : Fin 2)).val = win0_5.index t (0 : Fin 2) * 512 + (j (0 : Fin 2)).val; omega
  | ⟨1, _⟩ => show win0_5.index t (1 : Fin 2) * 512 + 1 * (j (1 : Fin 2)).val = win0_5.index t (1 : Fin 2) * 512 + (j (1 : Fin 2)).val; omega

end Cert.KernelIdeal.QmmGrid

end
-- ==== Proof.FinalIdeal.lean ====
/-
  The idealized kernel's run, read: the result array ends holding the specification `G` of the argument arrays, and
  the argument arrays end unchanged.

  Every index (r, o) of the result lies in the block of the grid point (r / 512, o / 512), every point writes its
  block back, and what it writes is `G`'s block: so after the last write-back the array is `G`, in whatever order the
  points ran.
-/
import proofs.«174524_j76407468195936_2_alg».proof.Proof.FrameIdeal
import proofs.«174524_j76407468195936_2_alg».proof.Proof.GridFacts

set_option maxRecDepth 16384

noncomputable section

namespace Cert.KernelIdeal.Qmm

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

/-- The result array after the run is `G` of the argument arrays. -/
theorem final_out (c : Dev nD) : (dats m 0 c).arrAt 5 cfg0.N = Garr m c :=
  (dats m 0 c).arrAt_eq_of_cover 5 (Garr m c) (fun t _ => win0_5.cut_fill _ _ _) Cert.KernelIdeal.QmmGrid.cover5

/-- The run with the result named and the arguments kept. -/
theorem kernel_run (hv : ∀ c, ValueAt m c) :
    θ_run defs (onTc (τ := τ) (main (F := Ideal))) ⟨m, fun _ => 0, ρ⟩ (fun r => ∀ c : Dev nD,
      r.2.mem ((c.tc : Thread nD τ).loc main_v0) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final_out m c),
      ((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).1 3).trans (((dats m 0 c).arrAt_in 3 rfl _).trans (V_main_arg3 m c)),
      ((h c).1 4).trans (((dats m 0 c).arrAt_in 4 rfl _).trans (V_main_arg4 m c))⟩) (run_main m ρ hv)

end Cert.KernelIdeal.Qmm

end
-- ==== Proof.BodyValueLayout.lean ====
/-
  The kernel body's layout operations read at one index.

  The body dequantizes a chunk of 512 input features at a time.  A chunk's scales and offsets arrive as a
  [512, 4] block (four groups of 128 features); the block is expanded to [512, 512] by viewing it as [512, 4, 1],
  repeating the last axis 128 times and flattening: entry (q, k') of the expansion is entry (q, k' / 128) of the
  block.  A chunk of the weight buffer and a chunk's four group columns are rectangles of the staging buffers: a
  rectangle at column offset o reads column o + k'.  The dequantized activations are the activation buffer times
  the per-row scale column, repeated along the row.  The row mask compares the global output row
  512 * (grid column) + q with 11008, the number of output features.
-/
import proofs.«174524_j76407468195936_2_alg».proof.Proof.BodyFnIdeal
import Idealize.ShloMosaic.Lib.ValueIdx
import Idealize.ShloMosaic.Lib.ValueLayout
import Idealize.ShloMosaic.Lib.Affine

noncomputable section

open scoped BigOperators

namespace Cert.KernelIdeal.QmmValue

open Idealize.ShloMosaic Idealize.SL.Sem Idealize.ShloMosaic.ValueIdx
open Cert.KernelIdeal Cert.KernelIdeal.Gen

/-! ## The group expansion -/

/-- A [512, 4] block viewed [512, 4, 1], repeated 128 times along the last axis and flattened to [512, 512]:
    entry (q, k') is the block's entry (q, k' / 128). -/
theorem expand_apply {α : Type} (v : S512x4.Idx → α)
    (h1 : S512x4.ShapeCasts S512x4x1) (h2 : S512x4x1.ShapeCasts S512x4x1)
    (hb : S512x4x1.Broadcasts S512x4x128) (h3 : S512x4x128.ShapeCasts S512x512)
    (q k' : Fin 512) (g : Fin 4) (hg : g.val = k'.val / 128) :
    shapeCast S512x512 (broadcastTo S512x4x128 (shapeCast S512x4x1 (shapeCast S512x4x1 v h1) h2) hb) h3 (ix2 q k')
      = v (ix2 q g) := by
  have hk := k'.isLt
  refine (shapeCast_apply _ h3 (ix2 q k') (ix3 q g (⟨k'.val % 128, Nat.mod_lt _ (by decide)⟩ : Fin 128)) ?_).trans ?_
  · rw [Shape.rowMajor_val_three, Shape.rowMajor_val_two]
    show (q.val * 4 + g.val) * 128 + k'.val % 128 = q.val * 512 + k'.val
    omega
  refine (broadcastTo_apply _ hb _ (ix3 q g (0 : Fin 1)) ?_).trans ?_
  · intro a
    match a with
    | ⟨0, _⟩ => exact (if_neg (show ¬((512 : Nat) = 1) by decide)).symm
    | ⟨1, _⟩ => exact (if_neg (show ¬((4 : Nat) = 1) by decide)).symm
    | ⟨2, _⟩ => exact (if_pos rfl).symm
  rw [shapeCast_self]
  refine shapeCast_apply _ h1 _ (ix2 q g) ?_
  rw [Shape.rowMajor_val_three, Shape.rowMajor_val_two]
  show q.val * 4 + g.val = (q.val * 4 + g.val) * 1 + 0
  omega

/-! ## Rectangles of the staging buffers -/

/-- The whole activation buffer read through its full rectangle. -/
theorem ldX_apply {F : FTy → Type} (x : Vec F S512x4096 .f32) (inb) (r : Fin 512) (k : Fin 4096) :
    View.ld (Val := Elt F) x (Rect.unit (s := S512x4096) ![0, 0] S512x4096.size inb) (ix2 r k) = x (ix2 r k) := by
  show x _ = x _
  refine congrArg x (funext fun a => Fin.ext ?_)
  match a with
  | ⟨0, _⟩ => show 0 + 1 * r.val = r.val; omega
  | ⟨1, _⟩ => show 0 + 1 * k.val = k.val; omega

/-- The whole scale column read through its full rectangle. -/
theorem ldS_apply {F : FTy → Type} (s : Vec F S512x1 .f32) (inb) (r : Fin 512) (z : Fin 1) :
    View.ld (Val := Elt F) s (Rect.unit (s := S512x1) ![0, 0] S512x1.size inb) (ix2 r z) = s (ix2 r z) := by
  show s _ = s _
  refine congrArg s (funext fun a => Fin.ext ?_)
  match a with
  | ⟨0, _⟩ => show 0 + 1 * r.val = r.val; omega
  | ⟨1, _⟩ => show 0 + 1 * z.val = z.val; omega

/-- A chunk of 512 columns of the weight buffer from column `o`: entry (q, k') is the buffer's entry (q, o + k'). -/
theorem ldW_apply {F : FTy → Type} (w : Vec F S512x4096 .f32) (o : Nat) (inb) (q k' : Fin 512) (k : Fin 4096)
    (hk : k.val = o + k'.val) :
    View.ld (Val := Elt F) w (Rect.unit (s := S512x4096) ![0, o] S512x512.size inb) (ix2 q k') = w (ix2 q k) := by
  show w _ = w _
  refine congrArg w (funext fun a => Fin.ext ?_)
  match a with
  | ⟨0, _⟩ => show 0 + 1 * q.val = q.val; omega
  | ⟨1, _⟩ => show o + 1 * k'.val = k.val; omega

/-- Four group columns of the scale / offset buffer from column `o`: entry (q, g) is the buffer's entry (q, o + g). -/
theorem ldG_apply {F : FTy → Type} (ws : Vec F S512x32 .f32) (o : Nat) (inb) (q : Fin 512) (g : Fin 4) (G : Fin 32)
    (hG : G.val = o + g.val) :
    View.ld (Val := Elt F) ws (Rect.unit (s := S512x32) ![0, o] S512x4.size inb) (ix2 q g) = ws (ix2 q G) := by
  show ws _ = ws _
  refine congrArg ws (funext fun a => Fin.ext ?_)
  match a with
  | ⟨0, _⟩ => show 0 + 1 * q.val = q.val; omega
  | ⟨1, _⟩ => show o + 1 * g.val = G.val; omega

/-! ## The dequantized activations -/

/-- The activation buffer times the scale column repeated along each row: entry (r, k) is x[r, k] * s[r, 0]. -/
theorem pay3_apply (x : Vec Ideal S512x4096 .f32) (s : Vec Ideal S512x1 .f32) (r : Fin 512) (k : Fin 4096) :
    k0_pay3 (F := Ideal) x s (ix2 r k) = x (ix2 r k) * s (ix2 r (0 : Fin 1)) := by
  unfold k0_pay3
  refine (mulf_apply _ _ _).trans ?_
  refine congrArg (x (ix2 r k) * ·) ?_
  refine broadcastTo_apply _ _ (ix2 r k) (ix2 r (0 : Fin 1)) ?_
  intro a
  match a with
  | ⟨0, _⟩ => exact (if_neg (show ¬((512 : Nat) = 1) by decide)).symm
  | ⟨1, _⟩ => exact (if_pos rfl).symm

/-- A chunk of 512 columns of a [512, 4096] value from column `o`. -/
theorem chunk_apply {α : Type} (v : S512x4096.Idx → α) (o : Nat) (h : S512x4096.Slices ![0, o] S512x512)
    (r k' : Fin 512) (k : Fin 4096) (hk : k.val = o + k'.val) :
    extractStridedSlice S512x512 ![0, o] v h (ix2 r k') = v (ix2 r k) :=
  slice2_axis1_apply o v h r k' k hk

/-! ## The row mask -/

/-- The mask bit of row `q` of the block at grid column `i 1` is set when the global output row is below 11008. -/
theorem pay2_apply (i : grid0.Coords) (q k' : Fin 512) (hq : (i 1).val * 512 + q.val < 11008) :
    k0_pay2 i (ix2 q k') = 1#1 := by
  unfold k0_pay2
  show IntOp.cmpi .slt (IntOp.addi (iota .tc S512x512 32 [0] _ (ix2 q k')) (Scalar.muli (BitVec.ofNat 32 (i 1).val) 512#32)) 11008#32 = 1#1
  rw [iota_single_apply, IntOp.cmpi_slt]
  have hi : (i 1).val < 22 := (i 1).isLt
  have hq' := q.isLt
  show ((BitVec.ofNat 32 q.val + BitVec.ofNat 32 (i 1).val * 512#32 : BitVec 32)).toInt < (11008#32 : BitVec 32).toInt
  have e : (BitVec.ofNat 32 q.val + BitVec.ofNat 32 (i 1).val * 512#32 : BitVec 32).toNat = q.val + (i 1).val * 512 := by
    rw [BitVec.toNat_add, BitVec.toNat_mul, BitVec.toNat_ofNat, BitVec.toNat_ofNat]
    show (q.val % 2 ^ 32 + (i 1).val % 2 ^ 32 * 512 % 2 ^ 32) % 2 ^ 32 = _
    omega
  rw [BitVec.toInt_eq_toNat_of_lt (by rw [e]; omega), e]
  show ((q.val + (i 1).val * 512 : Nat) : Int) < 11008
  omega

end Cert.KernelIdeal.QmmValue

end
-- ==== Proof.BodyValueChunk.lean ====
/-
  One chunk of the kernel body read at one index.

  A chunk multiplies 512 columns of the dequantized activations with 512 columns of the dequantized, masked weights
  and adds the product to the running sum.  The product is taken as three matrix products of "high" and "low" parts:
  on the extended reals a change of float format is the identity, so the high part of a value is the value itself and
  the low part is the value minus itself — zero wherever the value is a real number.  Every matrix product starts from
  the zero accumulator and contracts the column index of both operands, so at entry (r, q) it is the sum over the 512
  columns k' of (left operand at (r, k')) * (right operand at (q, k')).  The two products with a low part have a zero
  factor in every term (anything times zero is zero on the extended reals) and vanish; only row r of the left operand
  and row q of the right operand have to be real for that.
-/
import proofs.«174524_j76407468195936_2_alg».proof.Proof.BodyFnIdeal
import Idealize.ShloMosaic.Lib.ValueIdx
import Idealize.ShloMosaic.Lib.ValueLayout
import Idealize.ShloMosaic.PureOps.Ideal.Laws

noncomputable section

open scoped BigOperators

namespace Cert.KernelIdeal.QmmValue

open Idealize.ShloMosaic Idealize.SL.Sem Idealize.ShloMosaic.ValueIdx
open Cert.KernelIdeal Cert.KernelIdeal.Gen

/-- The body's dot: both operands contract their column index. -/
abbrev D512 : DotDims S512x512 S512x512 S512x512 := dot_S512x512_S512x512_S512x512_1_1_0_0_n_n

theorem lhsIdx_0 (i : S512x512.Idx) (c : D512.contr.Idx) : (D512.lhsIdx i c 0).val = (i 0).val := by
  unfold DotDims.lhsIdx
  rw [dif_neg (show ¬(0 : Fin S512x512.rank) ∈ D512.lhsBatch by decide),
    dif_pos (show (0 : Fin S512x512.rank) ∈ D512.lhsNonContracting by decide)]
  rfl
theorem lhsIdx_1 (i : S512x512.Idx) (c : D512.contr.Idx) : (D512.lhsIdx i c 1).val = (c ⟨0, by decide⟩).val :=
  D512.lhsIdx_val_of_single rfl i c
theorem rhsIdx_0 (i : S512x512.Idx) (c : D512.contr.Idx) : (D512.rhsIdx i c 0).val = (i 1).val := by
  unfold DotDims.rhsIdx
  rw [dif_neg (show ¬(0 : Fin S512x512.rank) ∈ D512.rhsBatch by decide),
    dif_pos (show (0 : Fin S512x512.rank) ∈ D512.rhsNonContracting by decide)]
  rfl
theorem rhsIdx_1 (i : S512x512.Idx) (c : D512.contr.Idx) : (D512.rhsIdx i c 1).val = (c ⟨0, by decide⟩).val :=
  D512.rhsIdx_val_of_single rfl i c

/-- A matrix product into the zero accumulator, at entry (r, q): the sum over the contracted column. -/
theorem mm_apply {φ₁ φ₂ : FTy} (a : FVec Ideal S512x512 φ₁) (b : FVec Ideal S512x512 φ₂) (r q : Fin 512) :
    matmul D512 none a b (constant (F := Ideal) S512x512 .f32 0x00000000#32) (ix2 r q)
      = ∑ k' : Fin 512, a (ix2 r k') * b (ix2 q k') := by
  refine (Ideal.matmul_constant_zero_apply D512 none a b (ix2 r q)).trans ?_
  rw [← Equiv.sum_comp (contrEquiv1 D512 512 rfl rfl).symm]
  refine Finset.sum_congr rfl fun k _ => ?_
  have hk := contrEquiv1_symm_val D512 512 rfl rfl k
  have el : D512.lhsIdx (ix2 r q) ((contrEquiv1 D512 512 rfl rfl).symm k) = ix2 r k := funext fun a => Fin.ext (by
    match a with
    | ⟨0, _⟩ => exact lhsIdx_0 _ _
    | ⟨1, _⟩ => exact (lhsIdx_1 _ _).trans hk)
  have er : D512.rhsIdx (ix2 r q) ((contrEquiv1 D512 512 rfl rfl).symm k) = ix2 q k := funext fun a => Fin.ext (by
    match a with
    | ⟨0, _⟩ => exact rhsIdx_0 _ _
    | ⟨1, _⟩ => exact (rhsIdx_1 _ _).trans hk)
  rw [el, er]

section AnyInstance
variable {F : FTy → Type} [FloatOps F]

/-- The three matrix products of one chunk added to the running sum `acc`: (high, high), (high, low), (low, high),
    the high part of a value being the value and the low part the value minus itself. -/
def mm3 (xk wm acc : FVec F S512x512 .f32) : FVec F S512x512 .f32 :=
  addf (addf (addf acc
    (matmul D512 none (truncf .bf16 xk bitsLt_bf16_f32) (truncf .bf16 wm bitsLt_bf16_f32) (constant S512x512 .f32 0x00000000#32)))
    (matmul D512 none (truncf .bf16 xk bitsLt_bf16_f32) (truncf .bf16 (subf wm wm) bitsLt_bf16_f32) (constant S512x512 .f32 0x00000000#32)))
    (matmul D512 none (truncf .bf16 (subf xk xk) bitsLt_bf16_f32) (truncf .bf16 wm bitsLt_bf16_f32) (constant S512x512 .f32 0x00000000#32))

/-- A [512, 4] block of per-group values expanded to the chunk's 512 columns. -/
def expand (v : Vec F S512x4 .f32) : FVec F S512x512 .f32 :=
  shapeCast S512x512 (broadcastTo S512x4x128 (shapeCast S512x4x1 (shapeCast S512x4x1 v shapeCasts_S512x4_S512x4x1)
    shapeCasts_S512x4x1_S512x4x1) broadcasts_S512x4x1_S512x4x128) shapeCasts_S512x4x128_S512x512

/-- A chunk's dequantized weights before the mask: (weight - offset) * scale. -/
def wraw (sc off : Vec F S512x4 .f32) (w : Vec F S512x512 .f32) : FVec F S512x512 .f32 :=
  mulf (subf w (expand off)) (expand sc)

/-- The mask: rows past the end of the weight array read `z` (the zero word). -/
def wmasked (m : IVec S512x512 1) (wr : FVec F S512x512 .f32) (z : F .f32) : FVec F S512x512 .f32 :=
  select m wr (broadcast S512x512 z)

end AnyInstance

/-- A real number minus itself is zero on the extended reals. -/
theorem sub_self_of_real {a : EReal} (h : ∃ b : ℝ, a = (b : EReal)) : a - a = 0 := by
  obtain ⟨b, rfl⟩ := h
  rw [← EReal.coe_sub, sub_self, EReal.coe_zero]

/-- ONE CHUNK AT AN ENTRY: the running sum there plus the sum over the chunk's 512 columns of the products, when row
    `r` of the left operand and row `q` of the right operand are real. -/
theorem mm3_apply (xk wm acc : FVec Ideal S512x512 .f32) (r q : Fin 512)
    (hx : ∀ k' : Fin 512, ∃ a : ℝ, xk (ix2 r k') = (a : EReal))
    (hw : ∀ k' : Fin 512, ∃ a : ℝ, wm (ix2 q k') = (a : EReal)) :
    mm3 (F := Ideal) xk wm acc (ix2 r q) = acc (ix2 r q) + ∑ k' : Fin 512, xk (ix2 r k') * wm (ix2 q k') := by
  unfold mm3
  rw [addf_apply, addf_apply, addf_apply, mm_apply, mm_apply, mm_apply]
  have z2 : ∑ k' : Fin 512, (truncf .bf16 xk bitsLt_bf16_f32 : FVec Ideal S512x512 .bf16) (ix2 r k')
      * (truncf .bf16 (subf wm wm) bitsLt_bf16_f32 : FVec Ideal S512x512 .bf16) (ix2 q k') = 0 :=
    Finset.sum_eq_zero fun k' _ => by
      show xk (ix2 r k') * (wm (ix2 q k') - wm (ix2 q k')) = 0
      rw [sub_self_of_real (hw k'), mul_zero]
  have z3 : ∑ k' : Fin 512, (truncf .bf16 (subf xk xk) bitsLt_bf16_f32 : FVec Ideal S512x512 .bf16) (ix2 r k')
      * (truncf .bf16 wm bitsLt_bf16_f32 : FVec Ideal S512x512 .bf16) (ix2 q k') = 0 :=
    Finset.sum_eq_zero fun k' _ => by
      show (xk (ix2 r k') - xk (ix2 r k')) * wm (ix2 q k') = 0
      rw [sub_self_of_real (hx k'), zero_mul]
  rw [z2, z3, add_zero, add_zero]
  rfl

/-- The masked weights at a row whose mask bit is set are the unmasked ones. -/
theorem wmasked_apply (m : IVec S512x512 1) (wr : FVec Ideal S512x512 .f32) (z : Ideal .f32) (q k' : Fin 512)
    (hm : m (ix2 q k') = 1#1) : wmasked (F := Ideal) m wr z (ix2 q k') = wr (ix2 q k') := by
  unfold wmasked
  rw [select_apply, hm, select_one]

end Cert.KernelIdeal.QmmValue

end
-- ==== Proof.BodyValue.lean ====
/-
  The kernel body's result block read at one entry.

  The body walks the 4096 input features in eight chunks of 512.  Chunk kk reads columns 512 kk ‥ 512 kk + 511 of the
  dequantized activations x[r, k] * s[r, 0] and of the weight buffer, and group columns 4 kk ‥ 4 kk + 3 of the scale and
  offset buffers; feature k = 512 kk + k' lies in group k / 128 = 4 kk + k' / 128, so the chunk's dequantized weight at
  (q, k') is (w[q, k] - wo[q, k / 128]) * ws[q, k / 128].  Each chunk adds its 512 products to the running sum, which
  starts at zero; the eight chunk sums in order are the sum over all 4096 features.  Only row r of the activations and
  of the scale column, and row q of the three weight buffers, have to hold real numbers, and row q has to be a row of
  the weight array (its mask bit set): the rest of the weight buffers may hold anything.
-/
import proofs.«174524_j76407468195936_2_alg».proof.Proof.BodyValueLayout
import proofs.«174524_j76407468195936_2_alg».proof.Proof.BodyValueChunk
import proofs.«174524_j76407468195936_2_alg».proof.Proof.Spec

noncomputable section

open scoped BigOperators

namespace Cert.KernelIdeal.QmmValue

open Idealize.ShloMosaic Idealize.SL.Sem Idealize.ShloMosaic.ValueIdx
open Cert.KernelIdeal Cert.KernelIdeal.Gen

/-! ## The body as eight chunk steps -/

section AnyInstance
variable {F : FTy → Type} [FloatOps F]

/-- One chunk step: columns `o ‥ o + 511` of the dequantized activations `v9` against the masked dequantized weights
    of columns `o ‥ o + 511` of the weight buffer and group columns `og ‥ og + 3` of the scale and offset buffers,
    added to the running sum `acc`. -/
def step (m : IVec S512x512 1) (v9 : FVec F S512x4096 .f32) (ws wo : Vec F S512x32 .f32) (w : Vec F S512x4096 .f32)
    (o og : Nat) (hsl : S512x4096.Slices ![0, o] S512x512)
    (inbW : ∀ a, (![0, o] : Fin 2 → Nat) a + S512x512.size a ≤ S512x4096.size a)
    (inbG : ∀ a, (![0, og] : Fin 2 → Nat) a + S512x4.size a ≤ S512x32.size a)
    (z : F .f32) (acc : FVec F S512x512 .f32) : FVec F S512x512 .f32 :=
  mm3 (extractStridedSlice S512x512 ![0, o] v9 hsl)
    (wmasked m (wraw (View.ld (Val := Elt F) ws (Rect.unit (s := S512x32) ![0, og] S512x4.size inbG))
      (View.ld (Val := Elt F) wo (Rect.unit (s := S512x32) ![0, og] S512x4.size inbG))
      (View.ld (Val := Elt F) w (Rect.unit (s := S512x4096) ![0, o] S512x512.size inbW))) z) acc

/-- The body's result is the eight chunk steps in order, from the zero block. -/
theorem bodyOut_eq_steps (i : grid0.Coords) (x : Vec F S512x4096 .f32) (s : Vec F S512x1 .f32) (w : Vec F S512x4096 .f32)
    (ws wo : Vec F S512x32 .f32) :
    Qmm.bodyOut i x s w ws wo
      = (step (k0_pay2 i) (k0_pay3 (View.ld (Val := Elt F) x Qmm.rX) (View.ld (Val := Elt F) s Qmm.rS)) ws wo w 3584 28 slices_S512x4096_o0_3584_S512x512 inb_S512x4096_S512x512_0_3584 inb_S512x32_S512x4_0_28
        (Scalar.ofBits .f32 0x00000000#32) (step (k0_pay2 i) (k0_pay3 (View.ld (Val := Elt F) x Qmm.rX) (View.ld (Val := Elt F) s Qmm.rS)) ws wo w 3072 24 slices_S512x4096_o0_3072_S512x512 inb_S512x4096_S512x512_0_3072 inb_S512x32_S512x4_0_24
        (Scalar.ofBits .f32 0x00000000#32) (step (k0_pay2 i) (k0_pay3 (View.ld (Val := Elt F) x Qmm.rX) (View.ld (Val := Elt F) s Qmm.rS)) ws wo w 2560 20 slices_S512x4096_o0_2560_S512x512 inb_S512x4096_S512x512_0_2560 inb_S512x32_S512x4_0_20
        (Scalar.ofBits .f32 0x00000000#32) (step (k0_pay2 i) (k0_pay3 (View.ld (Val := Elt F) x Qmm.rX) (View.ld (Val := Elt F) s Qmm.rS)) ws wo w 2048 16 slices_S512x4096_o0_2048_S512x512 inb_S512x4096_S512x512_0_2048 inb_S512x32_S512x4_0_16
        (Scalar.ofBits .f32 0x00000000#32) (step (k0_pay2 i) (k0_pay3 (View.ld (Val := Elt F) x Qmm.rX) (View.ld (Val := Elt F) s Qmm.rS)) ws wo w 1536 12 slices_S512x4096_o0_1536_S512x512 inb_S512x4096_S512x512_0_1536 inb_S512x32_S512x4_0_12
        (Scalar.ofBits .f32 0x00000000#32) (step (k0_pay2 i) (k0_pay3 (View.ld (Val := Elt F) x Qmm.rX) (View.ld (Val := Elt F) s Qmm.rS)) ws wo w 1024 8 slices_S512x4096_o0_1024_S512x512 inb_S512x4096_S512x512_0_1024 inb_S512x32_S512x4_0_8
        (Scalar.ofBits .f32 0x00000000#32) (step (k0_pay2 i) (k0_pay3 (View.ld (Val := Elt F) x Qmm.rX) (View.ld (Val := Elt F) s Qmm.rS)) ws wo w 512 4 slices_S512x4096_o0_512_S512x512 inb_S512x4096_S512x512_0_512 inb_S512x32_S512x4_0_4
        (Scalar.ofBits .f32 0x00000000#32) (step (k0_pay2 i) (k0_pay3 (View.ld (Val := Elt F) x Qmm.rX) (View.ld (Val := Elt F) s Qmm.rS)) ws wo w 0 0 slices_S512x4096_o0_0_S512x512 inb_S512x4096_S512x512_0_0 inb_S512x32_S512x4_0_0
        (Scalar.ofBits .f32 0x00000000#32) (broadcast S512x512 (Scalar.ofBits .f32 0x00000000#32)))))))))) := rfl

end AnyInstance

/-! ## A chunk's dequantized weights at an entry -/

/-- The unmasked dequantized weight of a chunk at (q, k'), for feature `K = o + k'` of a chunk whose groups start at
    `og = o / 128`. -/
theorem wraw_ld_apply (w : Vec Ideal S512x4096 .f32) (ws wo : Vec Ideal S512x32 .f32) (o og : Nat) (inbW) (inbG)
    (q k' : Fin 512) (K : Fin 4096) (hK : K.val = o + k'.val) (hog : o = 128 * og) :
    wraw (F := Ideal) (View.ld (Val := Elt Ideal) ws (Rect.unit (s := S512x32) ![0, og] S512x4.size inbG))
        (View.ld (Val := Elt Ideal) wo (Rect.unit (s := S512x32) ![0, og] S512x4.size inbG))
        (View.ld (Val := Elt Ideal) w (Rect.unit (s := S512x4096) ![0, o] S512x512.size inbW)) (ix2 q k')
      = (w (ix2 q K) - wo (ix2 q (Cert.QmmSpec.grp K))) * ws (ix2 q (Cert.QmmSpec.grp K)) := by
  have hk' := k'.isLt
  have hKlt := K.isLt
  have hg : k'.val / 128 < 4 := by omega
  unfold wraw expand
  rw [mulf_apply, subf_apply,
    expand_apply _ _ _ _ _ q k' ⟨k'.val / 128, hg⟩ rfl, expand_apply _ _ _ _ _ q k' ⟨k'.val / 128, hg⟩ rfl,
    ldW_apply w o inbW q k' K hK,
    ldG_apply ws og inbG q ⟨k'.val / 128, hg⟩ (Cert.QmmSpec.grp K) (by show K.val / 128 = og + k'.val / 128; omega),
    ldG_apply wo og inbG q ⟨k'.val / 128, hg⟩ (Cert.QmmSpec.grp K) (by show K.val / 128 = og + k'.val / 128; omega)]

/-! ## One chunk step at an entry -/

/-- The summand of feature `k` at entry (r, q). -/
def term (x : Vec Ideal S512x4096 .f32) (s : Vec Ideal S512x1 .f32) (w : Vec Ideal S512x4096 .f32)
    (ws wo : Vec Ideal S512x32 .f32) (r q : Fin 512) (k : Fin 4096) : EReal :=
  (x (ix2 r k) * s (ix2 r (0 : Fin 1))) * ((w (ix2 q k) - wo (ix2 q (Cert.QmmSpec.grp k))) * ws (ix2 q (Cert.QmmSpec.grp k)))

theorem step_apply (x : Vec Ideal S512x4096 .f32) (s : Vec Ideal S512x1 .f32) (w : Vec Ideal S512x4096 .f32)
    (ws wo : Vec Ideal S512x32 .f32) (m : IVec S512x512 1) (v9 : FVec Ideal S512x4096 .f32) (z : Ideal .f32)
    (r q : Fin 512)
    (hv9 : ∀ k : Fin 4096, v9 (ix2 r k) = x (ix2 r k) * s (ix2 r (0 : Fin 1)))
    (hm : ∀ k' : Fin 512, m (ix2 q k') = 1#1)
    (hx : ∀ k : Fin 4096, ∃ a : ℝ, x (ix2 r k) = (a : EReal)) (hs : ∃ a : ℝ, s (ix2 r (0 : Fin 1)) = (a : EReal))
    (hw : ∀ k : Fin 4096, ∃ a : ℝ, w (ix2 q k) = (a : EReal))
    (hws : ∀ g : Fin 32, ∃ a : ℝ, ws (ix2 q g) = (a : EReal)) (hwo : ∀ g : Fin 32, ∃ a : ℝ, wo (ix2 q g) = (a : EReal))
    (o og : Nat) (hsl) (inbW) (inbG) (acc : FVec Ideal S512x512 .f32) (ho : o + 512 ≤ 4096) (hog : o = 128 * og) :
    step (F := Ideal) m v9 ws wo w o og hsl inbW inbG z acc (ix2 r q)
      = acc (ix2 r q) + ∑ k' : Fin 512, term x s w ws wo r q ⟨o + k'.val, by have := k'.isLt; omega⟩ := by
  have hL : ∀ k' : Fin 512, extractStridedSlice S512x512 ![0, o] v9 hsl (ix2 r k')
      = x (ix2 r ⟨o + k'.val, by have := k'.isLt; omega⟩) * s (ix2 r (0 : Fin 1)) := fun k' =>
    (chunk_apply v9 o hsl r k' ⟨o + k'.val, by have := k'.isLt; omega⟩ rfl).trans (hv9 _)
  have hR : ∀ k' : Fin 512, wmasked (F := Ideal) m (wraw (F := Ideal)
        (View.ld (Val := Elt Ideal) ws (Rect.unit (s := S512x32) ![0, og] S512x4.size inbG))
        (View.ld (Val := Elt Ideal) wo (Rect.unit (s := S512x32) ![0, og] S512x4.size inbG))
        (View.ld (Val := Elt Ideal) w (Rect.unit (s := S512x4096) ![0, o] S512x512.size inbW))) z (ix2 q k')
      = (w (ix2 q ⟨o + k'.val, by have := k'.isLt; omega⟩)
          - wo (ix2 q (Cert.QmmSpec.grp ⟨o + k'.val, by have := k'.isLt; omega⟩)))
        * ws (ix2 q (Cert.QmmSpec.grp ⟨o + k'.val, by have := k'.isLt; omega⟩)) := fun k' =>
    (wmasked_apply m _ z q k' (hm k')).trans
      (wraw_ld_apply w ws wo o og inbW inbG q k' ⟨o + k'.val, by have := k'.isLt; omega⟩ rfl hog)
  unfold step
  refine (mm3_apply _ _ acc r q ?_ ?_).trans ?_
  · intro k'
    obtain ⟨a, ha⟩ := hx ⟨o + k'.val, by have := k'.isLt; omega⟩
    obtain ⟨b, hb⟩ := hs
    exact ⟨a * b, by rw [hL k', ha, hb, EReal.coe_mul]⟩
  · intro k'
    obtain ⟨a, ha⟩ := hw ⟨o + k'.val, by have := k'.isLt; omega⟩
    obtain ⟨b, hb⟩ := hwo (Cert.QmmSpec.grp ⟨o + k'.val, by have := k'.isLt; omega⟩)
    obtain ⟨c, hc⟩ := hws (Cert.QmmSpec.grp ⟨o + k'.val, by have := k'.isLt; omega⟩)
    exact ⟨(a - b) * c, by rw [hR k', ha, hb, hc, EReal.coe_mul, EReal.coe_sub]⟩
  · refine congrArg (acc (ix2 r q) + ·) (Finset.sum_congr rfl fun k' _ => ?_)
    rw [hL k', hR k']
    rfl

/-! ## The eight chunk sums are the sum over the 4096 features -/

theorem sum_chunks (f : Fin 4096 → EReal) :
    ∑ k : Fin 4096, f k = ∑ kk : Fin 8, ∑ k' : Fin 512, f ⟨512 * kk.val + k'.val, by have := kk.isLt; have := k'.isLt; omega⟩ := by
  have e := Equiv.sum_comp (finProdFinEquiv (m := 8) (n := 512)) (fun k : Fin (8 * 512) => f k)
  refine (show ∑ k : Fin 4096, f k = ∑ p : Fin 8 × Fin 512, f (finProdFinEquiv p) from e.symm).trans ?_
  rw [Fintype.sum_prod_type]
  refine Finset.sum_congr rfl fun kk _ => Finset.sum_congr rfl fun k' _ => ?_
  refine congrArg f (Fin.ext ?_)
  show k'.val + 512 * kk.val = 512 * kk.val + k'.val
  omega

theorem sum_4096 (f : Fin 4096 → EReal) :
    ∑ k : Fin 4096, f k
      = (∑ k' : Fin 512, f ⟨0 + k'.val, by have := k'.isLt; omega⟩)
        + (∑ k' : Fin 512, f ⟨512 + k'.val, by have := k'.isLt; omega⟩)
        + (∑ k' : Fin 512, f ⟨1024 + k'.val, by have := k'.isLt; omega⟩)
        + (∑ k' : Fin 512, f ⟨1536 + k'.val, by have := k'.isLt; omega⟩)
        + (∑ k' : Fin 512, f ⟨2048 + k'.val, by have := k'.isLt; omega⟩)
        + (∑ k' : Fin 512, f ⟨2560 + k'.val, by have := k'.isLt; omega⟩)
        + (∑ k' : Fin 512, f ⟨3072 + k'.val, by have := k'.isLt; omega⟩)
        + (∑ k' : Fin 512, f ⟨3584 + k'.val, by have := k'.isLt; omega⟩) := by
  rw [sum_chunks f, Fin.sum_univ_eight]
  rfl

/-! ## The result block at an entry -/

/-- THE BODY'S RESULT AT ENTRY (r, q) of the block at grid coordinates `i`: the sum over the 4096 input features of
    the dequantized activation times the dequantized weight, when row `r` of the activation buffer and of the scale
    column and row `q` of the weight, weight-scale and weight-offset buffers hold real numbers and global output
    row `512 * (i 1) + q` is a row of the weight array. -/
theorem bodyOut_apply (i : grid0.Coords)
    (x : Vec Ideal S512x4096 .f32) (s : Vec Ideal S512x1 .f32)
    (w : Vec Ideal S512x4096 .f32) (ws wo : Vec Ideal S512x32 .f32)
    (r q : Fin 512)
    (hq : (i 1).val * 512 + q.val < 11008)
    (hx : ∀ k : Fin 4096, ∃ a : ℝ, x (ix2 r k) = (a : EReal)) (hs : ∃ a : ℝ, s (ix2 r (0 : Fin 1)) = (a : EReal))
    (hw : ∀ k : Fin 4096, ∃ a : ℝ, w (ix2 q k) = (a : EReal))
    (hws : ∀ g : Fin 32, ∃ a : ℝ, ws (ix2 q g) = (a : EReal)) (hwo : ∀ g : Fin 32, ∃ a : ℝ, wo (ix2 q g) = (a : EReal)) :
    Qmm.bodyOut (F := Ideal) i x s w ws wo (ix2 r q)
      = ∑ k : Fin 4096, (x (ix2 r k) * s (ix2 r (0 : Fin 1)))
          * ((w (ix2 q k) - wo (ix2 q (Cert.QmmSpec.grp k))) * ws (ix2 q (Cert.QmmSpec.grp k))) := by
  have hv9 : ∀ k : Fin 4096, k0_pay3 (F := Ideal) (View.ld (Val := Elt Ideal) x Qmm.rX) (View.ld (Val := Elt Ideal) s Qmm.rS) (ix2 r k)
      = x (ix2 r k) * s (ix2 r (0 : Fin 1)) := fun k => by
    rw [pay3_apply, ldX_apply, ldS_apply]
  have hm : ∀ k' : Fin 512, k0_pay2 i (ix2 q k') = 1#1 := fun k' => pay2_apply i q k' hq
  have S := step_apply x s w ws wo (k0_pay2 i) _ (Scalar.ofBits (F := Ideal) .f32 0x00000000#32) r q hv9 hm hx hs hw hws hwo
  rw [bodyOut_eq_steps,
    S 3584 28 _ _ _ _ (by decide) (by decide), S 3072 24 _ _ _ _ (by decide) (by decide),
    S 2560 20 _ _ _ _ (by decide) (by decide), S 2048 16 _ _ _ _ (by decide) (by decide),
    S 1536 12 _ _ _ _ (by decide) (by decide), S 1024 8 _ _ _ _ (by decide) (by decide),
    S 512 4 _ _ _ _ (by decide) (by decide), S 0 0 _ _ _ _ (by decide) (by decide)]
  show Ideal.ofBits .f32 0x00000000#32 + _ + _ + _ + _ + _ + _ + _ + _ = _
  rw [Ideal.ofBits_zero_f32, zero_add]
  exact (sum_4096 (term x s w ws wo r q)).symm

end Cert.KernelIdeal.QmmValue

end
-- ==== Proof.ValueIdeal.lean ====
/-
  Block `t` of the specification is what the body leaves at point `t`, on the part that is written back.

  Point `t` = (i, j) holds rows 512 i ‥ of the activations and rows 512 j ‥ of the weight-side arrays; entry (r, q)
  of its result block, for q inside the result array's columns, is entry (512 i + r, 512 j + q) of `G`: the body's
  arithmetic at that entry (`bodyOut_apply`) reads row r of the activation blocks and row q of the weight-side blocks,
  and row q, lying inside the arrays, is row 512 j + q of the argument arrays whatever the buffers hold further down.
  The arguments' entries are real numbers by the precondition, which is what the body's arithmetic asks of those rows.
-/
import proofs.«174524_j76407468195936_2_alg».proof.Proof.FrameIdeal
import proofs.«174524_j76407468195936_2_alg».proof.Proof.BodyValue
import proofs.«174524_j76407468195936_2_alg».proof.Proof.GridFacts

set_option maxRecDepth 16384

noncomputable section

namespace Cert.KernelIdeal.Qmm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

set_option maxHeartbeats 1000000 in
theorem valueAt (c : Dev nD)
    (h0 : ∀ i, ∃ a : ℝ, m ((c.tc : Thread nD τ).loc main_arg0) i = (a : EReal))
    (h1 : ∀ i, ∃ a : ℝ, m ((c.tc : Thread nD τ).loc main_arg1) i = (a : EReal))
    (h2 : ∀ i, ∃ a : ℝ, m ((c.tc : Thread nD τ).loc main_arg2) i = (a : EReal))
    (h3 : ∀ i, ∃ a : ℝ, m ((c.tc : Thread nD τ).loc main_arg3) i = (a : EReal))
    (h4 : ∀ i, ∃ a : ℝ, m ((c.tc : Thread nD τ).loc main_arg4) i = (a : EReal)) : ValueAt m c := by
  intro t d2 d3 d4
  funext j
  obtain ⟨e00, e01, e10, e11, e20, e21, e30, e31, e40, e41, ec0, ec1, b0, b1⟩ := Cert.KernelIdeal.QmmGrid.idx_facts t
  obtain ⟨x50, x51, x20, x21, x30, x31, x40, x41⟩ := Cert.KernelIdeal.QmmGrid.xsize_facts t
  have hj0 : (j 0).val < win0_5.xsize (grid0.coords t) 0 := (j 0).isLt
  have hj1 : (j 1).val < win0_5.xsize (grid0.coords t) 1 := (j 1).isLt
  have hr : (j 0).val < 512 := by rw [x50] at hj0; exact hj0
  have hq : (j 1).val < 512 := by rw [x51] at hj1; omega
  have hq' : win0_5.index t 1 * 512 + (j 1).val < 11008 := by rw [x51] at hj1; omega
  -- the entry's coordinates in the block, and in the array
  let r : Fin 512 := ⟨(j 0).val, hr⟩
  let q : Fin 512 := ⟨(j 1).val, hq⟩
  let R : Fin 8192 := ⟨win0_5.index t 0 * 512 + (j 0).val, by omega⟩
  let Q : Fin 11008 := ⟨win0_5.index t 1 * 512 + (j 1).val, hq'⟩
  have hE : ((cfg0.win 5).blk t).view.emb j = ix2 R Q := by
    funext a; apply Fin.ext
    match a with
    | ⟨0, _⟩ => show win0_5.index t (0 : Fin 2) * 512 + 1 * (j 0).val = win0_5.index t 0 * 512 + (j 0).val; omega
    | ⟨1, _⟩ => show win0_5.index t (1 : Fin 2) * 512 + 1 * (j 1).val = win0_5.index t 1 * 512 + (j 1).val; omega
  -- the five buffers read at the rows the entry depends on
  have hX0 : ∀ k : Fin 4096, iblk m c 0 t (ix2 r k) = m ((c.tc : Thread nD τ).loc main_arg0) (ix2 R k) := fun k => by
    show m ((c.tc : Thread nD τ).loc main_arg0) (((cfg0.win 0).blk t).view.emb (ix2 r k)) = _
    congr 1; funext a; apply Fin.ext
    match a with
    | ⟨0, _⟩ => show win0_0.index t (0 : Fin 2) * 512 + 1 * (j 0).val = win0_5.index t 0 * 512 + (j 0).val; rw [e00]; omega
    | ⟨1, _⟩ => show win0_0.index t (1 : Fin 2) * 4096 + 1 * k.val = k.val; rw [e01]; omega
  have hX1 : iblk m c 1 t (ix2 r (0 : Fin 1)) = m ((c.tc : Thread nD τ).loc main_arg1) (ix2 R (0 : Fin 1)) := by
    show m ((c.tc : Thread nD τ).loc main_arg1) (((cfg0.win 1).blk t).view.emb (ix2 r (0 : Fin 1))) = _
    congr 1; funext a; apply Fin.ext
    match a with
    | ⟨0, _⟩ => show win0_1.index t (0 : Fin 2) * 512 + 1 * (j 0).val = win0_5.index t 0 * 512 + (j 0).val; rw [e10]; omega
    | ⟨1, _⟩ => show win0_1.index t (1 : Fin 2) * 1 + 1 * 0 = 0; rw [e11]
  have hX2 : ∀ k : Fin 4096, win0_2.fill (grid0.coords t) d2 (iblk m c 2 t) (ix2 q k)
      = m ((c.tc : Thread nD τ).loc main_arg2) (ix2 Q k) := fun k => by
    have hm : win0_2.moved (grid0.coords t) (ix2 q k) = true := (win0_2.moved_iff _ _).mpr fun a => by
      match a with
      | ⟨0, _⟩ => show (j 1).val < win0_2.xsize (grid0.coords t) 0; rw [x20]; exact hj1
      | ⟨1, _⟩ => show k.val < win0_2.xsize (grid0.coords t) 1; rw [x21]; exact k.isLt
    unfold Window.fill; rw [dif_pos hm]
    show m ((c.tc : Thread nD τ).loc main_arg2) (((cfg0.win 2).blk t).view.emb _) = _
    congr 1; funext a; apply Fin.ext
    match a with
    | ⟨0, _⟩ => show win0_2.index t (0 : Fin 2) * 512 + 1 * (j 1).val = win0_5.index t 1 * 512 + (j 1).val; rw [e20]; omega
    | ⟨1, _⟩ => show win0_2.index t (1 : Fin 2) * 4096 + 1 * k.val = k.val; rw [e21]; omega
  have hX3 : ∀ g : Fin 32, win0_3.fill (grid0.coords t) d3 (iblk m c 3 t) (ix2 q g)
      = m ((c.tc : Thread nD τ).loc main_arg3) (ix2 Q g) := fun g => by
    have hm : win0_3.moved (grid0.coords t) (ix2 q g) = true := (win0_3.moved_iff _ _).mpr fun a => by
      match a with
      | ⟨0, _⟩ => show (j 1).val < win0_3.xsize (grid0.coords t) 0; rw [x30]; exact hj1
      | ⟨1, _⟩ => show g.val < win0_3.xsize (grid0.coords t) 1; rw [x31]; exact g.isLt
    unfold Window.fill; rw [dif_pos hm]
    show m ((c.tc : Thread nD τ).loc main_arg3) (((cfg0.win 3).blk t).view.emb _) = _
    congr 1; funext a; apply Fin.ext
    match a with
    | ⟨0, _⟩ => show win0_3.index t (0 : Fin 2) * 512 + 1 * (j 1).val = win0_5.index t 1 * 512 + (j 1).val; rw [e30]; omega
    | ⟨1, _⟩ => show win0_3.index t (1 : Fin 2) * 32 + 1 * g.val = g.val; rw [e31]; omega
  have hX4 : ∀ g : Fin 32, win0_4.fill (grid0.coords t) d4 (iblk m c 4 t) (ix2 q g)
      = m ((c.tc : Thread nD τ).loc main_arg4) (ix2 Q g) := fun g => by
    have hm : win0_4.moved (grid0.coords t) (ix2 q g) = true := (win0_4.moved_iff _ _).mpr fun a => by
      match a with
      | ⟨0, _⟩ => show (j 1).val < win0_4.xsize (grid0.coords t) 0; rw [x40]; exact hj1
      | ⟨1, _⟩ => show g.val < win0_4.xsize (grid0.coords t) 1; rw [x41]; exact g.isLt
    unfold Window.fill; rw [dif_pos hm]
    show m ((c.tc : Thread nD τ).loc main_arg4) (((cfg0.win 4).blk t).view.emb _) = _
    congr 1; funext a; apply Fin.ext
    match a with
    | ⟨0, _⟩ => show win0_4.index t (0 : Fin 2) * 512 + 1 * (j 1).val = win0_5.index t 1 * 512 + (j 1).val; rw [e40]; omega
    | ⟨1, _⟩ => show win0_4.index t (1 : Fin 2) * 32 + 1 * g.val = g.val; rw [e41]; omega
  -- the body's arithmetic at the entry
  have hJ : win0_5.xinj (grid0.coords t) j = ix2 r q := by
    funext a
    match a with
    | ⟨0, _⟩ => rfl
    | ⟨1, _⟩ => rfl
  show bodyOut (F := Ideal) (grid0.coords t) (iblk m c 0 t) (iblk m c 1 t) (win0_2.fill (grid0.coords t) d2 (iblk m c 2 t))
      (win0_3.fill (grid0.coords t) d3 (iblk m c 3 t)) (win0_4.fill (grid0.coords t) d4 (iblk m c 4 t)) (win0_5.xinj (grid0.coords t) j)
    = Garr m c (((cfg0.win 5).blk t).view.emb j)
  rw [hJ, hE]
  refine (Cert.KernelIdeal.QmmValue.bodyOut_apply (grid0.coords t) (iblk m c 0 t) (iblk m c 1 t)
    (win0_2.fill (grid0.coords t) d2 (iblk m c 2 t)) (win0_3.fill (grid0.coords t) d3 (iblk m c 3 t))
    (win0_4.fill (grid0.coords t) d4 (iblk m c 4 t)) r q (by rw [ec1]; exact hq')
    (fun k => by rw [hX0 k]; exact h0 _) (by rw [hX1]; exact h1 _) (fun k => by rw [hX2 k]; exact h2 _)
    (fun g => by rw [hX3 g]; exact h3 _) (fun g => by rw [hX4 g]; exact h4 _)).trans ?_
  refine Eq.trans ?_ (show (∑ k : Fin 4096,
      Cert.QmmSpec.xdeq (m ((c.tc : Thread nD τ).loc main_arg0)) (m ((c.tc : Thread nD τ).loc main_arg1)) R k
        * Cert.QmmSpec.wdeq (m ((c.tc : Thread nD τ).loc main_arg2)) (m ((c.tc : Thread nD τ).loc main_arg3))
            (m ((c.tc : Thread nD τ).loc main_arg4)) Q k) = Garr m c (ix2 R Q) from rfl)
  refine Finset.sum_congr rfl fun k _ => ?_
  rw [hX0 k, hX1, hX2 k, hX3 (Cert.QmmSpec.grp k), hX4 (Cert.QmmSpec.grp k)]
  rfl

end Cert.KernelIdeal.Qmm

end
-- ==== Proof.RefValue.lean ====
/-
  The reference program's result is the specification.

  The reference dequantizes the activations by a broadcast product, x[t,k] = qx[t,k] * sx[t,0], and the weights through a
  reshape [11008,4096] -> [11008,32,128], a broadcast difference and product with the per-group offset and scale, and the
  reshape back. A row-major reshape keeps the flat position: (o,g,l) of the rank-3 array is (o, g*128+l) of the rank-2 one,
  and (o,k) of the rank-2 array is (o, k/128, k%128) of the rank-3 one. So the weight operand of the contraction is
  W[o,k] = (w[o,k] - off[o,k/128]) * sc[o,k/128], and the contraction over axis 1 of both operands is the linear layer
  out[t,o] = ∑ k, x[t,k] * W[o,k]. No finiteness is needed: the equation holds on all extended reals, term by term.
-/
import proofs.«174524_j76407468195936_2_alg».proof.Defs
import proofs.«174524_j76407468195936_2_alg».proof.Proof.Spec
import proofs.«174524_j76407468195936_2_alg».proof.Proof.Gen.Pre_finite_inputs
import proofs.«174524_j76407468195936_2_alg».proof.Proof.Gen.ReferenceIdeal.Read

noncomputable section

open scoped BigOperators

namespace Cert.QmmRef

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The composed index functions, by coordinates -/

/-- The left operand of the contraction is read at (t, k). -/
theorem lidx_eq (i : S8192x11008.Idx) (k : Fin 4096) : lidx_main_v10 i k = ix2 (i 0) k := by
  funext a; match a with | ⟨0, _⟩ => rfl | ⟨1, _⟩ => rfl

/-- The activation scale, broadcast along the features, is read at (t, 0). -/
theorem sidx_eq (i : S8192x11008.Idx) (k : Fin 4096) :
    idx_main_v0 (lidx_main_v10 i k) = ix2 (i 0) (0 : Fin 1) := by
  funext a; match a with | ⟨0, _⟩ => rfl | ⟨1, _⟩ => rfl

/-- Through the reshape back and the reshape, the weight is read at (o, k): the flat position is kept. -/
theorem widx_eq (i : S8192x11008.Idx) (k : Fin 4096) :
    idx_main_v2 (idx_main_v9 (ridx_main_v10 i k)) = ix2 (i 1) k := by
  have h1 : (i 1).val < 11008 := (i 1).isLt
  have hk : k.val < 4096 := k.isLt
  funext a
  match a with
  | ⟨0, _⟩ =>
    refine Fin.ext ?_
    show ((((i 1).val * 4096 + k.val) / 4096 * 32 + ((i 1).val * 4096 + k.val) / 128 % 32) * 128
      + ((i 1).val * 4096 + k.val) % 128) / 4096 = (i 1).val
    omega
  | ⟨1, _⟩ =>
    refine Fin.ext ?_
    show ((((i 1).val * 4096 + k.val) / 4096 * 32 + ((i 1).val * 4096 + k.val) / 128 % 32) * 128
      + ((i 1).val * 4096 + k.val) % 128) % 4096 = k.val
    omega

/-- Through the reshape back and the two broadcasts, the offset is read at (o, k / 128) … -/
theorem oidx_eq (i : S8192x11008.Idx) (k : Fin 4096) :
    idx_main_v3 (idx_main_v4 (idx_main_v9 (ridx_main_v10 i k))) = ix2 (i 1) (Cert.QmmSpec.grp k) := by
  have h1 : (i 1).val < 11008 := (i 1).isLt
  have hk : k.val < 4096 := k.isLt
  funext a
  match a with
  | ⟨0, _⟩ =>
    refine Fin.ext ?_
    show ((i 1).val * 4096 + k.val) / 4096 = (i 1).val
    omega
  | ⟨1, _⟩ =>
    refine Fin.ext ?_
    show ((i 1).val * 4096 + k.val) / 128 % 32 = k.val / 128
    omega

/-- … and so is the scale. -/
theorem cidx_eq (i : S8192x11008.Idx) (k : Fin 4096) :
    idx_main_v6 (idx_main_v7 (idx_main_v9 (ridx_main_v10 i k))) = ix2 (i 1) (Cert.QmmSpec.grp k) := by
  have h1 : (i 1).val < 11008 := (i 1).isLt
  have hk : k.val < 4096 := k.isLt
  funext a
  match a with
  | ⟨0, _⟩ =>
    refine Fin.ext ?_
    show ((i 1).val * 4096 + k.val) / 4096 = (i 1).val
    omega
  | ⟨1, _⟩ =>
    refine Fin.ext ?_
    show ((i 1).val * 4096 + k.val) / 128 % 32 = k.val / 128
    omega

/-! ## The result term is the specification -/

/-- The term the reference's run ends at, of any five argument arrays, is the linear layer on the dequantized operands. -/
theorem ref_eq (a0 : FVec Ideal S8192x4096 .f32) (a1 : FVec Ideal S8192x1 .f32)
    (a2 : FVec Ideal S11008x4096 .f32) (a3 a4 : FVec Ideal S11008x32 .f32) :
    (Host.dotGeneral dot_S8192x4096_S11008x4096_S8192x11008_1_1_0_0_n_n none (mulf (a0) (broadcastInDim S8192x4096 ![0, 1] bcast_S8192x1_S8192x4096_0_1 (a1))) (shapeCast _ (mulf (subf (shapeCast _ (a2) shapeCasts_S11008x4096_S11008x32x128) (broadcastInDim S11008x32x128 ![0, 1, 2] bcast_S11008x32x1_S11008x32x128_0_1_2 (broadcastInDim S11008x32x1 ![0, 1] bcast_S11008x32_S11008x32x1_0_1 (a4)))) (broadcastInDim S11008x32x128 ![0, 1, 2] bcast_S11008x32x1_S11008x32x128_0_1_2 (broadcastInDim S11008x32x1 ![0, 1] bcast_S11008x32_S11008x32x1_0_1 (a3)))) shapeCasts_S11008x32x128_S11008x4096) : FVec Ideal S8192x11008 .f32)
      = Cert.QmmSpec.G a0 a1 a2 a3 a4 := by
  rw [val_main_v10_eq (F := Ideal) a0 a1 a2 a3 a4]
  funext i
  rw [val_main_v10_apply]
  unfold Cert.QmmSpec.G
  refine Finset.sum_congr rfl fun k _ => ?_
  rw [val_main_v1_apply, val_main_v0_apply, val_main_v9_apply, val_main_v8_apply, val_main_v5_apply, val_main_v2_apply,
    val_main_v4_apply, val_main_v3_apply, val_main_v7_apply, val_main_v6_apply,
    sidx_eq i k, lidx_eq i k, widx_eq i k, oidx_eq i k, cidx_eq i k]
  rfl

/-! ## The run, and the frame -/

/-- Every weakly fair execution of the reference terminates with its result at the specification of the launch contents
    of the five arguments, and the arguments unchanged. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v10) = Cert.QmmSpec.G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c => ⟨(h c).1.trans (ref_eq _ _ _ _ _), (h c).2⟩)
    (Cert.ReferenceIdeal.Value.run (F := Ideal) m' g')

/-- The reference runs and leaves its arguments unchanged, from any memory: the precondition is not used. -/
theorem ref_frame : Cert.frame_ReferenceIdeal := fun m ρ _ =>
  (θ_run Cert.ReferenceIdeal.defs _ _).mono (fun _ h c => (h c).2) (Cert.ReferenceIdeal.Value.run (F := Ideal) m ρ)

end Cert.QmmRef

end
-- ==== Proof.Finite.lean ====
/-
  Finiteness out of the precondition.

  The precondition says that "every entry of every argument array has absolute value below +infinity" evaluates to true:
  it is the conjunction of five conjunctions over all entries, one per array, of the comparison |x| < +infinity. A
  conjunction over all entries that came out true was true at every entry; and on the extended reals max x (-x) < ⊤ excludes
  both infinities (max ⊥ ⊤ = ⊤, max ⊤ ⊥ = ⊤), so the entry is a real number.
-/
import proofs.«174524_j76407468195936_2_alg».proof.Defs
import Idealize.ShloMosaic.Lib.ReduceAll
import Idealize.ShloMosaic.Lib.ValueIdx

noncomputable section

namespace Cert.QmmFinite

open Idealize.ShloMosaic Idealize.ShloMosaic.TcCoe Idealize.SL.Sem Idealize.ShloMosaic.ValueIdx Cert.Pre_finite_inputs

/-- The scalar shape has exactly one index. -/
theorem idx0_subsingleton : Subsingleton S_.Idx := ⟨fun a b => funext fun d => d.elim0⟩

/-- The f32 pattern with all exponent bits set and a zero fraction denotes +infinity. -/
theorem top_eq : Ideal.ofBits .f32 0x7F800000#32 = (⊤ : EReal) := by
  simp [Ideal.ofBits, Ideal.ieee]

/-- An extended real whose absolute value compares below +infinity is a real number. -/
theorem real_of_abs_lt (x : EReal) (h : Ideal.cmp .olt (max x (-x)) (Ideal.ofBits .f32 0x7F800000#32) = 1#1) :
    ∃ r : ℝ, x = (r : EReal) := by
  rw [top_eq] at h
  induction x using EReal.rec with
  | bot => simp [Ideal.cmp] at h
  | coe r => exact ⟨r, rfl⟩
  | top => simp [Ideal.cmp] at h

/-- One entry of the comparison array: the absolute value of the entry against the broadcast +infinity. -/
theorem real_of_elem {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) :
    ∃ r : ℝ, x i = (r : EReal) :=
  real_of_abs_lt (x i) e

/-- If the predicate is true of five arrays, every entry of each is a real number. -/
theorem finite_of_fn [Facts] (x0 : FVec Ideal S8192x4096 .f32) (x1 : FVec Ideal S8192x1 .f32) (x2 : FVec Ideal S11008x4096 .f32)
    (x3 x4 : FVec Ideal S11008x32 .f32) (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  haveI := idx0_subsingleton
  have h0 := congrFun h ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_elem x0 _ i (Host.reduce_andi_all _ _ _ _ ix0 e0 i),
    fun i => real_of_elem x1 _ i (Host.reduce_andi_all _ _ _ _ ix0 e1 i),
    fun i => real_of_elem x2 _ i (Host.reduce_andi_all _ _ _ _ ix0 e2 i),
    fun i => real_of_elem x3 _ i (Host.reduce_andi_all _ _ _ _ ix0 e3 i),
    fun i => real_of_elem x4 _ i (Host.reduce_andi_all _ _ _ _ ix0 e4 i)⟩

/-- Under the precondition, on every device, every entry of the five argument arrays is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  finite_of_fn _ _ _ _ _ (h c)

end Cert.QmmFinite

end
-- ==== Proof.Preserves.lean ====
/-
  The sanctioned rewrites: narrowing an f32 array to bf16 and widening it back.

  Each of the sixteen entries is the same rule at the same shape and formats. At the extended reals a format change is the
  identity, so widening after narrowing returns the array; at the bit-exact values the window is, element by element, the
  rounding through bf16. Both halves hold by unfolding the operations, and the rule's own statement theorem records that.
-/
import proofs.«174524_j76407468195936_2_alg».proof.Defs

noncomputable section

namespace Cert.QmmPreserves

open Idealize.ShloMosaic

/-- One application of the rule: f32 through bf16 and back, on a 512 x 512 array. -/
theorem one : IdealRules.truncf_extf.Statement Cert.KernelIdeal.S512x512 .f32 .bf16 :=
  IdealRules.truncf_extf.statement Cert.KernelIdeal.S512x512 .f32 .bf16

/-- All sixteen entries are that one application. -/
theorem preserves : Cert.preserves_Kernel_KernelIdeal :=
  ⟨one, one, one, one, one, one, one, one, one, one, one, one, one, one, one, one⟩

end Cert.QmmPreserves

end
-- ==== Proof.lean ====
/-
  The certificate: a quantized linear layer — activations dequantized by a per-token scale, weights dequantized group
  by group (128 input features to a group) by an offset and a scale, then `out = x · Wᵀ` — computed by a pipelined kernel
  over a 16 x 22 grid of 512 x 512 result blocks, against the plain jnp formulation.

  The kernel splits each operand of each 512-column chunk into a bf16 head and a bf16 remainder and adds three matrix
  products per chunk. On the extended reals a change of float format is the identity, so the remainders are x − x and
  W − W, which vanish because the arguments are finite; the products with a vanishing factor vanish, and the eight chunk
  sums are the sum over all 4096 input features. The last block column overhangs the 11008 output features: the kernel
  masks the weight rows past the end, and the columns computed from them are never written back.

  The pieces: the body as a pure function of its staging buffers and its run (BodyFn*, BodySound*); the word-level
  program's frame, relational (FrameBits); the idealized program's proof data, obligation and run (FrameIdeal), the body's
  arithmetic at an entry (BodyValue), the grid's arithmetic (GridFacts), block `t` of the specification (ValueIdeal), the
  result array (FinalIdeal); the reference's run (RefValue); finiteness out of the precondition (Finite); the rewrites the
  idealization made (Preserves).
-/
import proofs.«174524_j76407468195936_2_alg».proof.Defs
import proofs.«174524_j76407468195936_2_alg».proof.Proof.Gen.Kernel
import proofs.«174524_j76407468195936_2_alg».proof.Proof.Gen.KernelIdeal
import proofs.«174524_j76407468195936_2_alg».proof.Proof.Gen.ReferenceIdeal
import proofs.«174524_j76407468195936_2_alg».proof.Proof.Gen.Pre_finite_inputs
import proofs.«174524_j76407468195936_2_alg».proof.Proof.FrameBits
import proofs.«174524_j76407468195936_2_alg».proof.Proof.FinalIdeal
import proofs.«174524_j76407468195936_2_alg».proof.Proof.ValueIdeal
import proofs.«174524_j76407468195936_2_alg».proof.Proof.RefValue
import proofs.«174524_j76407468195936_2_alg».proof.Proof.Finite
import proofs.«174524_j76407468195936_2_alg».proof.Proof.Preserves
import Idealize.ShloMosaic.Adequacy
import Idealize.ShloMosaic.Init

noncomputable section

namespace Cert.Proof

open Idealize.ShloMosaic Idealize.SL.Sem

/-- The value fact at every device, from the precondition. -/
theorem valueAt_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Qmm.ValueAt m c :=
  have hf := Cert.QmmFinite.finite_of_pre m h c
  Cert.KernelIdeal.Qmm.valueAt m c hf.1 hf.2.1 hf.2.2.1 hf.2.2.2.1 hf.2.2.2.2

theorem frame_k : Cert.frame_Kernel := fun m ρ _ => Cert.Kernel.Qmm.frame (F := Bits) m ρ

theorem frame_ki : Cert.frame_KernelIdeal := fun m ρ h =>
  (θ_run Cert.KernelIdeal.defs _ _).mono (fun _ hr c => (hr c).2)
    (Cert.KernelIdeal.Qmm.kernel_run m ρ (valueAt_of_pre m h))

/-- Both idealized programs end with the specification of their (agreeing) arguments. -/
theorem algebraic : Cert.algebraic_KernelIdeal_ReferenceIdeal := by
  intro m ρ m' ρ' hpre hagree
  refine ⟨fun c => Cert.KernelIdeal.Qmm.Garr m c, Cert.KernelIdeal.Qmm.kernel_run m ρ (valueAt_of_pre m hpre), ?_⟩
  refine (θ_run Cert.ReferenceIdeal.defs _ _).mono (fun _ h c => ⟨(h c).1.trans ?_, (h c).2⟩) (Cert.QmmRef.ref_run m' ρ')
  rw [(hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, Cert.QmmRef.ref_frame, Cert.QmmPreserves.preserves, algebraic⟩

end Cert.Proof

end
